-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1x1x481x2 : Shape := ⟨5, ![32768, 1, 1, 481, 2]⟩
abbrev S32768x5x1x96x2 : Shape := ⟨5, ![32768, 5, 1, 96, 2]⟩
abbrev S32768x1x5x96x2 : Shape := ⟨5, ![32768, 1, 5, 96, 2]⟩
abbrev S_ : Shape := ⟨0, ![]⟩

class Facts : Prop where
  bcast_S_S32768x1x1x481x2 : S_.BroadcastsInDim S32768x1x1x481x2 (![] : Fin 0 → Fin S32768x1x1x481x2.rank)
  reducesTo_S32768x1x1x481x2_S_d0_1_2_3_4 : S32768x1x1x481x2.ReducesTo [0, 1, 2, 3, 4] S_
  h_S_ : 0 < S_.numel
  bcast_S_S32768x5x1x96x2 : S_.BroadcastsInDim S32768x5x1x96x2 (![] : Fin 0 → Fin S32768x5x1x96x2.rank)
  reducesTo_S32768x5x1x96x2_S_d0_1_2_3_4 : S32768x5x1x96x2.ReducesTo [0, 1, 2, 3, 4] S_
  bcast_S_S32768x1x5x96x2 : S_.BroadcastsInDim S32768x1x5x96x2 (![] : Fin 0 → Fin S32768x1x5x96x2.rank)
  reducesTo_S32768x1x5x96x2_S_d0_1_2_3_4 : S32768x1x5x96x2.ReducesTo [0, 1, 2, 3, 4] S_

variable [Facts]

def fn {F : FTy → Type} [FloatOps F] (main_arg0 : FVec F S32768x1x1x481x2 .f32) (main_arg1 : FVec F S32768x5x1x96x2 .f32) (main_arg2 : FVec F S32768x1x5x96x2 .f32) : IVec S_ 1 :=
  let main_v0 : FVec F S32768x1x1x481x2 .f32 := Host.absf main_arg0
  let main_cst : FVec F S_ .f32 := constant S_ .f32 0x7F800000#32
  let main_v1 : FVec F S32768x1x1x481x2 .f32 := broadcastInDim S32768x1x1x481x2 ![] bcast_S_S32768x1x1x481x2 main_cst
  let main_v2 : IVec S32768x1x1x481x2 1 := cmpf .olt main_v0 main_v1
  let main_c : IVec S_ 1 := constantI S_ 1 1#1
  let main_v3 : IVec S_ 1 := (fun x v => Host.reduce IntOp.andi x v reducesTo_S32768x1x1x481x2_S_d0_1_2_3_4 h_S_) main_v2 main_c
  let main_v4 : FVec F S32768x5x1x96x2 .f32 := Host.absf main_arg1
  let main_cst_0 : FVec F S_ .f32 := constant S_ .f32 0x7F800000#32
  let main_v5 : FVec F S32768x5x1x96x2 .f32 := broadcastInDim S32768x5x1x96x2 ![] bcast_S_S32768x5x1x96x2 main_cst_0
  let main_v6 : IVec S32768x5x1x96x2 1 := cmpf .olt main_v4 main_v5
  let main_c_1 : IVec S_ 1 := constantI S_ 1 1#1
  let main_v7 : IVec S_ 1 := (fun x v => Host.reduce IntOp.andi x v reducesTo_S32768x5x1x96x2_S_d0_1_2_3_4 h_S_) main_v6 main_c_1
  let main_v8 : IVec S_ 1 := andi main_v3 main_v7
  let main_v9 : FVec F S32768x1x5x96x2 .f32 := Host.absf main_arg2
  let main_cst_2 : FVec F S_ .f32 := constant S_ .f32 0x7F800000#32
  let main_v10 : FVec F S32768x1x5x96x2 .f32 := broadcastInDim S32768x1x5x96x2 ![] bcast_S_S32768x1x5x96x2 main_cst_2
  let main_v11 : IVec S32768x1x5x96x2 1 := cmpf .olt main_v9 main_v10
  let main_c_3 : IVec S_ 1 := constantI S_ 1 1#1
  let main_v12 : IVec S_ 1 := (fun x v => Host.reduce IntOp.andi x v reducesTo_S32768x1x5x96x2_S_d0_1_2_3_4 h_S_) main_v11 main_c_3
  let main_v13 : IVec S_ 1 := andi main_v8 main_v12
  main_v13
-- ==== Kernel.lean ====
abbrev S32768x1x1x481x2 : Shape := ⟨5, ![32768, 1, 1, 481, 2]⟩
abbrev S32768x5x1x96x2 : Shape := ⟨5, ![32768, 5, 1, 96, 2]⟩
abbrev S32768x1x5x96x2 : Shape := ⟨5, ![32768, 1, 5, 96, 2]⟩
abbrev S32768x481x2 : Shape := ⟨3, ![32768, 481, 2]⟩
abbrev S32768x2x481 : Shape := ⟨3, ![32768, 2, 481]⟩
abbrev S32768x962 : Shape := ⟨2, ![32768, 962]⟩
abbrev S32768x480x2 : Shape := ⟨3, ![32768, 480, 2]⟩
abbrev S32768x2x480 : Shape := ⟨3, ![32768, 2, 480]⟩
abbrev S32768x960 : Shape := ⟨2, ![32768, 960]⟩
abbrev S512x962 : Shape := ⟨2, ![512, 962]⟩
abbrev S512x960 : Shape := ⟨2, ![512, 960]⟩
abbrev S512x96 : Shape := ⟨2, ![512, 96]⟩
abbrev S512x385 : Shape := ⟨2, ![512, 385]⟩
abbrev S512x480 : Shape := ⟨2, ![512, 480]⟩
abbrev S512x384 : Shape := ⟨2, ![512, 384]⟩

abbrev nBuf : Space → Nat
  | .hbm => 20
  | .vmem => 10
  | .smem => 0
  | _ => 0

abbrev bufTy : (tb : Table) → Fin (tcTables nBuf tb) → BufTy
  | .hbm, ⟨0, _⟩ => ⟨S32768x1x1x481x2, .f32⟩
  | .hbm, ⟨1, _⟩ => ⟨S32768x5x1x96x2, .f32⟩
  | .hbm, ⟨2, _⟩ => ⟨S32768x1x5x96x2, .f32⟩
  | .hbm, ⟨3, _⟩ => ⟨S32768x481x2, .f32⟩
  | .hbm, ⟨4, _⟩ => ⟨S32768x2x481, .f32⟩
  | .hbm, ⟨5, _⟩ => ⟨S32768x962, .f32⟩
  | .hbm, ⟨6, _⟩ => ⟨S32768x480x2, .f32⟩
  | .hbm, ⟨7, _⟩ => ⟨S32768x2x480, .f32⟩
  | .hbm, ⟨8, _⟩ => ⟨S32768x960, .f32⟩
  | .hbm, ⟨9, _⟩ => ⟨S32768x480x2, .f32⟩
  | .hbm, ⟨10, _⟩ => ⟨S32768x2x480, .f32⟩
  | .hbm, ⟨11, _⟩ => ⟨S32768x960, .f32⟩
  | .hbm, ⟨12, _⟩ => ⟨S32768x962, .f32⟩
  | .hbm, ⟨13, _⟩ => ⟨S32768x960, .f32⟩
  | .hbm, ⟨14, _⟩ => ⟨S32768x2x481, .f32⟩
  | .hbm, ⟨15, _⟩ => ⟨S32768x481x2, .f32⟩
  | .hbm, ⟨16, _⟩ => ⟨S32768x1x1x481x2, .f32⟩
  | .hbm, ⟨17, _⟩ => ⟨S32768x2x480, .f32⟩
  | .hbm, ⟨18, _⟩ => ⟨S32768x480x2, .f32⟩
  | .hbm, ⟨19, _⟩ => ⟨S32768x1x5x96x2, .f32⟩
  | .local _ .vmem, ⟨0, _⟩ => ⟨S512x962, .f32⟩
  | .local _ .vmem, ⟨1, _⟩ => ⟨S512x962, .f32⟩
  | .local _ .vmem, ⟨2, _⟩ => ⟨S512x960, .f32⟩
  | .local _ .vmem, ⟨3, _⟩ => ⟨S512x960, .f32⟩
  | .local _ .vmem, ⟨4, _⟩ => ⟨S512x960, .f32⟩
  | .local _ .vmem, ⟨5, _⟩ => ⟨S512x960, .f32⟩
  | .local _ .vmem, ⟨6, _⟩ => ⟨S512x962, .f32⟩
  | .local _ .vmem, ⟨7, _⟩ => ⟨S512x962, .f32⟩
  | .local _ .vmem, ⟨8, _⟩ => ⟨S512x960, .f32⟩
  | .local _ .vmem, ⟨9, _⟩ => ⟨S512x960, .f32⟩
  | _, _ => ⟨S32768x1x1x481x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x962 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x960 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x962 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x960 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32768x1x1x481x2_S32768x481x2 : S32768x1x1x481x2.ShapeCasts S32768x481x2
  transposes_S32768x481x2_S32768x2x481_0_2_1 : S32768x481x2.Transposes [0, 2, 1] S32768x2x481
  shapeCasts_S32768x2x481_S32768x962 : S32768x2x481.ShapeCasts S32768x962
  shapeCasts_S32768x5x1x96x2_S32768x480x2 : S32768x5x1x96x2.ShapeCasts S32768x480x2
  transposes_S32768x480x2_S32768x2x480_0_2_1 : S32768x480x2.Transposes [0, 2, 1] S32768x2x480
  shapeCasts_S32768x2x480_S32768x960 : S32768x2x480.ShapeCasts S32768x960
  shapeCasts_S32768x1x5x96x2_S32768x480x2 : S32768x1x5x96x2.ShapeCasts S32768x480x2
  inb_S512x962_S512x96_0_0 : ∀ a, (![0, 0] : Fin 2 → Nat) a + S512x96.size a ≤ S512x962.size a
  h_S512x96 : 0 < S512x96.numel
  shapeCasts_S512x96_S512x96 : S512x96.ShapeCasts S512x96
  inb_S512x962_S512x96_0_481 : ∀ a, (![0, 481] : Fin 2 → Nat) a + S512x96.size a ≤ S512x962.size a
  inb_S512x962_S512x385_0_96 : ∀ a, (![0, 96] : Fin 2 → Nat) a + S512x385.size a ≤ S512x962.size a
  h_S512x385 : 0 < S512x385.numel
  shapeCasts_S512x385_S512x385 : S512x385.ShapeCasts S512x385
  inb_S512x962_S512x385_0_577 : ∀ a, (![0, 577] : Fin 2 → Nat) a + S512x385.size a ≤ S512x962.size a
  inb_S512x960_S512x480_0_0 : ∀ a, (![0, 0] : Fin 2 → Nat) a + S512x480.size a ≤ S512x960.size a
  h_S512x480 : 0 < S512x480.numel
  shapeCasts_S512x480_S512x480 : S512x480.ShapeCasts S512x480
  inb_S512x960_S512x480_0_480 : ∀ a, (![0, 480] : Fin 2 → Nat) a + S512x480.size a ≤ S512x960.size a
  slices_S512x480_o0_96_S512x384 : S512x480.Slices ![0, 96] S512x384
  concatenates_S512x384_S512x96_S512x480_d1 : Shape.Concatenates [S512x384, S512x96] S512x480 1
  slices_S512x480_o0_0_S512x96 : S512x480.Slices ![0, 0] S512x96
  slices_S512x480_o0_96_S512x96 : S512x480.Slices ![0, 96] S512x96
  slices_S512x480_o0_192_S512x96 : S512x480.Slices ![0, 192] S512x96
  slices_S512x480_o0_288_S512x96 : S512x480.Slices ![0, 288] S512x96
  slices_S512x480_o0_384_S512x96 : S512x480.Slices ![0, 384] S512x96
  shapeCasts_S32768x962_S32768x2x481 : S32768x962.ShapeCasts S32768x2x481
  transposes_S32768x2x481_S32768x481x2_0_2_1 : S32768x2x481.Transposes [0, 2, 1] S32768x481x2
  shapeCasts_S32768x481x2_S32768x1x1x481x2 : S32768x481x2.ShapeCasts S32768x1x1x481x2
  shapeCasts_S32768x960_S32768x2x480 : S32768x960.ShapeCasts S32768x2x480
  transposes_S32768x2x480_S32768x480x2_0_2_1 : S32768x2x480.Transposes [0, 2, 1] S32768x480x2
  shapeCasts_S32768x480x2_S32768x1x5x96x2 : S32768x480x2.ShapeCasts S32768x1x5x96x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x962.size a ≤ S32768x962.size a
  hwx0_0 : ∀ i : grid0.Coords, EltTy.bits .f32 = 32 ∨ (Rect.block (s := S32768x962) S512x962.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x960.size a ≤ S32768x960.size a
  hwx0_1 : ∀ i : grid0.Coords, EltTy.bits .f32 = 32 ∨ (Rect.block (s := S32768x960) S512x960.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x960.size a ≤ S32768x960.size a
  hwx0_2 : ∀ i : grid0.Coords, EltTy.bits .f32 = 32 ∨ (Rect.block (s := S32768x960) S512x960.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x962.size a ≤ S32768x962.size a
  hwx0_3 : ∀ i : grid0.Coords, EltTy.bits .f32 = 32 ∨ (Rect.block (s := S32768x962) S512x962.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x960.size a ≤ S32768x960.size a
  hwx0_4 : ∀ i : grid0.Coords, EltTy.bits .f32 = 32 ∨ (Rect.block (s := S32768x960) S512x960.size (cc0_transform_4 i) (hinb0_4 i)).WholeWords (EltTy.packing .f32)

variable [Facts₀]

abbrev win0_0 : Pipeline.Window sig grid0 :=
  Pipeline.Window.ofSpec (Memref.whole main_v2) S512x962.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x960.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x960.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S512x962.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S512x960.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x1x1x481x2 : Shape := ⟨5, ![32768, 1, 1, 481, 2]⟩
abbrev S32768x5x1x96x2 : Shape := ⟨5, ![32768, 5, 1, 96, 2]⟩
abbrev S32768x1x5x96x2 : Shape := ⟨5, ![32768, 1, 5, 96, 2]⟩
abbrev S32768x1x1x96x2 : Shape := ⟨5, ![32768, 1, 1, 96, 2]⟩
abbrev S32768x1x4x96x2 : Shape := ⟨5, ![32768, 1, 4, 96, 2]⟩
abbrev S32768x1x5x96x1 : Shape := ⟨5, ![32768, 1, 5, 96, 1]⟩
abbrev S32768x1x5x96 : Shape := ⟨4, ![32768, 1, 5, 96]⟩
abbrev S_ : Shape := ⟨0, ![]⟩
abbrev S32768x1x96 : Shape := ⟨3, ![32768, 1, 96]⟩
abbrev S32768x1x96x1 : Shape := ⟨4, ![32768, 1, 96, 1]⟩
abbrev S32768x1x96x2 : Shape := ⟨4, ![32768, 1, 96, 2]⟩
abbrev S32768x1x1x385x2 : Shape := ⟨5, ![32768, 1, 1, 385, 2]⟩

abbrev nBuf : Space → Nat
  | .hbm => 31
  | .vmem => 0
  | .smem => 0
  | _ => 0

abbrev bufTy : (tb : Table) → Fin (tcTables nBuf tb) → BufTy
  | .hbm, ⟨0, _⟩ => ⟨S32768x1x1x481x2, .f32⟩
  | .hbm, ⟨1, _⟩ => ⟨S32768x5x1x96x2, .f32⟩
  | .hbm, ⟨2, _⟩ => ⟨S32768x1x5x96x2, .f32⟩
  | .hbm, ⟨3, _⟩ => ⟨S32768x1x1x96x2, .f32⟩
  | .hbm, ⟨4, _⟩ => ⟨S32768x1x4x96x2, .f32⟩
  | .hbm, ⟨5, _⟩ => ⟨S32768x1x5x96x2, .f32⟩
  | .hbm, ⟨6, _⟩ => ⟨S32768x1x5x96x2, .f32⟩
  | .hbm, ⟨7, _⟩ => ⟨S32768x1x5x96x1, .f32⟩
  | .hbm, ⟨8, _⟩ => ⟨S32768x1x5x96, .f32⟩
  | .hbm, ⟨9, _⟩ => ⟨S32768x1x5x96x1, .f32⟩
  | .hbm, ⟨10, _⟩ => ⟨S32768x1x5x96, .f32⟩
  | .hbm, ⟨11, _⟩ => ⟨S32768x1x5x96x1, .f32⟩
  | .hbm, ⟨12, _⟩ => ⟨S32768x1x5x96, .f32⟩
  | .hbm, ⟨13, _⟩ => ⟨S32768x1x5x96x1, .f32⟩
  | .hbm, ⟨14, _⟩ => ⟨S32768x1x5x96, .f32⟩
  | .hbm, ⟨15, _⟩ => ⟨S32768x1x5x96, .f32⟩
  | .hbm, ⟨16, _⟩ => ⟨S32768x1x5x96, .f32⟩
  | .hbm, ⟨17, _⟩ => ⟨S32768x1x5x96, .f32⟩
  | .hbm, ⟨18, _⟩ => ⟨S_, .f32⟩
  | .hbm, ⟨19, _⟩ => ⟨S32768x1x96, .f32⟩
  | .hbm, ⟨20, _⟩ => ⟨S32768x1x5x96, .f32⟩
  | .hbm, ⟨21, _⟩ => ⟨S32768x1x5x96, .f32⟩
  | .hbm, ⟨22, _⟩ => ⟨S32768x1x5x96, .f32⟩
  | .hbm, ⟨23, _⟩ => ⟨S_, .f32⟩
  | .hbm, ⟨24, _⟩ => ⟨S32768x1x96, .f32⟩
  | .hbm, ⟨25, _⟩ => ⟨S32768x1x96x1, .f32⟩
  | .hbm, ⟨26, _⟩ => ⟨S32768x1x96x1, .f32⟩
  | .hbm, ⟨27, _⟩ => ⟨S32768x1x96x2, .f32⟩
  | .hbm, ⟨28, _⟩ => ⟨S32768x1x1x96x2, .f32⟩
  | .hbm, ⟨29, _⟩ => ⟨S32768x1x1x385x2, .f32⟩
  | .hbm, ⟨30, _⟩ => ⟨S32768x1x1x481x2, .f32⟩
  | _, _ => ⟨S32768x1x1x481x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]

class Facts₀ : Prop where
  slices_S32768x1x1x481x2_S32768x1x1x96x2_0_0_0_0_0 : S32768x1x1x481x2.Slices ![0, 0, 0, 0, 0] S32768x1x1x96x2
  slices_S32768x1x5x96x2_S32768x1x4x96x2_0_0_1_0_0 : S32768x1x5x96x2.Slices ![0, 0, 1, 0, 0] S32768x1x4x96x2
  concatenates_S32768x1x4x96x2_S32768x1x1x96x2_S32768x1x5x96x2_d2 : Shape.Concatenates [S32768x1x4x96x2, S32768x1x1x96x2] S32768x1x5x96x2 2
  transposes_S32768x5x1x96x2_S32768x1x5x96x2_0_2_1_3_4 : S32768x5x1x96x2.Transposes [0, 2, 1, 3, 4] S32768x1x5x96x2
  slices_S32768x1x5x96x2_S32768x1x5x96x1_0_0_0_0_0 : S32768x1x5x96x2.Slices ![0, 0, 0, 0, 0] S32768x1x5x96x1
  shapeCasts_S32768x1x5x96x1_S32768x1x5x96 : S32768x1x5x96x1.ShapeCasts S32768x1x5x96
  slices_S32768x1x5x96x2_S32768x1x5x96x1_0_0_0_0_1 : S32768x1x5x96x2.Slices ![0, 0, 0, 0, 1] S32768x1x5x96x1
  reducesTo_S32768x1x5x96_S32768x1x96_d2 : S32768x1x5x96.ReducesTo [2] S32768x1x96
  h_S_ : 0 < S_.numel
  bcast_S32768x1x96_S32768x1x96x1_0_1_2 : S32768x1x96.BroadcastsInDim S32768x1x96x1 (![0, 1, 2] : Fin 3 → Fin S32768x1x96x1.rank)
  concatenates_S32768x1x96x1_S32768x1x96x1_S32768x1x96x2_d3 : Shape.Concatenates [S32768x1x96x1, S32768x1x96x1] S32768x1x96x2 3
  bcast_S32768x1x96x2_S32768x1x1x96x2_0_1_3_4 : S32768x1x96x2.BroadcastsInDim S32768x1x1x96x2 (![0, 1, 3, 4] : Fin 4 → Fin S32768x1x1x96x2.rank)
  slices_S32768x1x1x481x2_S32768x1x1x385x2_0_0_0_96_0 : S32768x1x1x481x2.Slices ![0, 0, 0, 96, 0] S32768x1x1x385x2
  concatenates_S32768x1x1x96x2_S32768x1x1x385x2_S32768x1x1x481x2_d3 : Shape.Concatenates [S32768x1x1x96x2, S32768x1x1x385x2] S32768x1x1x481x2 3

variable [Facts₀]

class Facts : Prop extends Facts₀ where

variable [Facts]
-- ==== Proof.Spec.lean ====
/-
  What the two results hold, stated without any program.

  The three arguments are a spectrum frame `A0 : [32768, 1, 1, 481, 2]`, filter coefficients
  `A1 : [32768, 5, 1, 96, 2]` and a ring buffer of past frames `A2 : [32768, 1, 5, 96, 2]`; the last axis holds a
  complex number's real and imaginary part. The new ring buffer drops the oldest of its five slots and appends the
  frame's 96 low bins; the enhanced frame replaces those 96 low bins by the complex sum over the five slots of
  (new ring buffer) × (coefficients), and keeps the 385 high bins.

  Arrays are read at NATURAL-NUMBER coordinates (`at2`, `at5`: the entry where every coordinate is in range, `0`
  elsewhere), so that every re-indexing met later — a reshape, a transpose, a slice, a block of a grid — is an
  identity between natural numbers.

  One batch row of either program's planar layout is a function of the column alone; `rowOut3` and `rowOut4` are the
  two result rows as functions of the three argument rows (`s0`: the frame, real parts then imaginary parts, 481 each;
  `s1`, `s2`: coefficients and ring buffer, real parts then imaginary parts, 480 = 5 · 96 each, slot-major).
-/
import Idealize.ShloMosaic.PureOps.Ideal
import Idealize.ShloMosaic.PureOps.Ideal.Laws
import Idealize.ShloMosaic.Lib.ValueIdx

noncomputable section

namespace Cert.RingFilter

open Idealize.ShloMosaic Idealize.ShloMosaic.ValueIdx

/-! ## Arrays at natural-number coordinates -/

/-- A rank-2 array at natural-number coordinates: its entry where both are in range, `0` elsewhere. -/
def at2 {n0 n1 : Nat} (X : (⟨2, ![n0, n1]⟩ : Shape).Idx → EReal) (a b : Nat) : EReal :=
  if h : a < n0 ∧ b < n1 then X (ix2 ⟨a, h.1⟩ ⟨b, h.2⟩) else 0

/-- An entry of a rank-2 array is the array at the entry's coordinates. -/
theorem at2_apply {n0 n1 : Nat} (X : (⟨2, ![n0, n1]⟩ : Shape).Idx → EReal) (k : (⟨2, ![n0, n1]⟩ : Shape).Idx) :
    X k = at2 X (k 0).val (k 1).val := by
  unfold at2
  rw [dif_pos ⟨idx2_lt0 k, idx2_lt1 k⟩]
  exact congrArg X (eq_ix2 k)

/-- In range, the reader is the entry. -/
theorem at2_of_lt {n0 n1 : Nat} (X : (⟨2, ![n0, n1]⟩ : Shape).Idx → EReal) {a b : Nat} (ha : a < n0) (hb : b < n1) :
    at2 X a b = X (ix2 ⟨a, ha⟩ ⟨b, hb⟩) := by
  unfold at2; rw [dif_pos ⟨ha, hb⟩]

/-- A rank-5 array at natural-number coordinates: its entry where all five are in range, `0` elsewhere. -/
def at5 {n0 n1 n2 n3 n4 : Nat} (X : (⟨5, ![n0, n1, n2, n3, n4]⟩ : Shape).Idx → EReal) (a b c d e : Nat) : EReal :=
  if h : a < n0 ∧ b < n1 ∧ c < n2 ∧ d < n3 ∧ e < n4 then
    X (ix5 ⟨a, h.1⟩ ⟨b, h.2.1⟩ ⟨c, h.2.2.1⟩ ⟨d, h.2.2.2.1⟩ ⟨e, h.2.2.2.2⟩) else 0

/-- An entry of a rank-5 array is the array at the entry's coordinates. -/
theorem at5_apply {n0 n1 n2 n3 n4 : Nat} (X : (⟨5, ![n0, n1, n2, n3, n4]⟩ : Shape).Idx → EReal)
    (k : (⟨5, ![n0, n1, n2, n3, n4]⟩ : Shape).Idx) :
    X k = at5 X (k 0).val (k 1).val (k 2).val (k 3).val (k 4).val := by
  unfold at5
  rw [dif_pos ⟨(k 0).isLt, (k 1).isLt, (k 2).isLt, (k 3).isLt, (k 4).isLt⟩]
  exact congrArg X (eq_ix5 k)

/-- Equal coordinates, equal entries. -/
theorem at5_congr {n0 n1 n2 n3 n4 : Nat} (X : (⟨5, ![n0, n1, n2, n3, n4]⟩ : Shape).Idx → EReal) {a b c d e a' b' c' d' e' : Nat}
    (ha : a = a') (hb : b = b') (hc : c = c') (hd : d = d') (he : e = e') : at5 X a b c d e = at5 X a' b' c' d' e' := by
  subst ha hb hc hd he; rfl

/-! ## One batch row -/

section Row
variable (s0 s1 s2 : Nat → EReal)

/-- The new ring buffer's real parts, slot-major: slots 0–3 are the old slots 1–4, slot 4 the frame's low bins. -/
def nbR (j : Nat) : EReal := if j < 384 then s2 (j + 96) else s0 (j - 384)
/-- Its imaginary parts (the ring buffer's start at column 480, the frame's at column 481). -/
def nbI (j : Nat) : EReal := if j < 384 then s2 (480 + (j + 96)) else s0 (481 + (j - 384))
/-- Real part of (new ring buffer) × (coefficient) at slot-major position `j`. -/
def pRe (j : Nat) : EReal := nbR s0 s2 j * s1 j - nbI s0 s2 j * s1 (480 + j)
/-- Imaginary part of the same product. -/
def pIm (j : Nat) : EReal := nbR s0 s2 j * s1 (480 + j) + nbI s0 s2 j * s1 j
/-- The five slots' real parts at bin `f`, added first to last. -/
def reSum (f : Nat) : EReal := pRe s0 s1 s2 f + pRe s0 s1 s2 (96 + f) + pRe s0 s1 s2 (192 + f) + pRe s0 s1 s2 (288 + f) + pRe s0 s1 s2 (384 + f)
/-- The five slots' imaginary parts at bin `f`, added first to last. -/
def imSum (f : Nat) : EReal := pIm s0 s1 s2 f + pIm s0 s1 s2 (96 + f) + pIm s0 s1 s2 (192 + f) + pIm s0 s1 s2 (288 + f) + pIm s0 s1 s2 (384 + f)

/-- The enhanced frame's row: filtered low bins and untouched high bins, real parts (columns 0–480) then imaginary
    parts (columns 481–961). -/
def rowOut3 (col : Nat) : EReal :=
  if col < 96 then reSum s0 s1 s2 col
  else if col < 481 then s0 col
  else if col < 577 then imSum s0 s1 s2 (col - 481)
  else s0 col

/-- The new ring buffer's row: real parts (columns 0–479) then imaginary parts (columns 480–959). -/
def rowOut4 (col : Nat) : EReal := if col < 480 then nbR s0 s2 col else nbI s0 s2 (col - 480)

end Row

/-! ## The two results, entry by entry -/

section Results
variable (A0 : (⟨5, ![32768, 1, 1, 481, 2]⟩ : Shape).Idx → EReal) (A1 : (⟨5, ![32768, 5, 1, 96, 2]⟩ : Shape).Idx → EReal)
  (A2 : (⟨5, ![32768, 1, 5, 96, 2]⟩ : Shape).Idx → EReal)

/-- The new ring buffer at batch `b`, slot `o`, bin `f`, part `c`. -/
def nbAt (b o f c : Nat) : EReal := if o < 4 then at5 A2 b 0 (o + 1) f c else at5 A0 b 0 0 f c
/-- Real part of slot `o`'s product at batch `b`, bin `f`. -/
def tRe (b f o : Nat) : EReal := nbAt A0 A2 b o f 0 * at5 A1 b o 0 f 0 - nbAt A0 A2 b o f 1 * at5 A1 b o 0 f 1
/-- Imaginary part of slot `o`'s product. -/
def tIm (b f o : Nat) : EReal := nbAt A0 A2 b o f 0 * at5 A1 b o 0 f 1 + nbAt A0 A2 b o f 1 * at5 A1 b o 0 f 0

/-- The five slots' real parts at batch `b`, bin `f`, added first to last. -/
def sumRe (b f : Nat) : EReal := tRe A0 A1 A2 b f 0 + tRe A0 A1 A2 b f 1 + tRe A0 A1 A2 b f 2 + tRe A0 A1 A2 b f 3 + tRe A0 A1 A2 b f 4
/-- The five slots' imaginary parts. -/
def sumIm (b f : Nat) : EReal := tIm A0 A1 A2 b f 0 + tIm A0 A1 A2 b f 1 + tIm A0 A1 A2 b f 2 + tIm A0 A1 A2 b f 3 + tIm A0 A1 A2 b f 4

/-- The new ring buffer. -/
def newBuf (i : (⟨5, ![32768, 1, 5, 96, 2]⟩ : Shape).Idx) : EReal := nbAt A0 A2 (i 0).val (i 2).val (i 3).val (i 4).val

/-- The enhanced frame. -/
def enhanced (i : (⟨5, ![32768, 1, 1, 481, 2]⟩ : Shape).Idx) : EReal :=
  if (i 3).val < 96 then
    (if (i 4).val = 0 then sumRe A0 A1 A2 (i 0).val (i 3).val else sumIm A0 A1 A2 (i 0).val (i 3).val)
  else A0 i

end Results

end Cert.RingFilter

end
-- ==== Proof.Planar.lean ====
/-
  The planar layout against the specification.

  Both programs' host operations around the kernel re-lay each argument so that one batch row is a function of a
  single column: the frame's row puts bin `f`, part `c` at column `481 c + f`; the coefficients' and the ring buffer's
  rows put slot `o`, bin `f`, part `c` at column `480 c + 96 o + f`. Fed these rows, the row functions of the
  specification give the specification's entries: the enhanced frame at `(b, f, c)` is the result row at column
  `481 c + f`, the new ring buffer at `(b, o, f, c)` the other result row at column `480 c + 96 o + f`.
-/
import proofs.«115475_j55765855371911_2_alg».proof.Proof.Spec

noncomputable section

namespace Cert.RingFilter

open Idealize.ShloMosaic Idealize.ShloMosaic.ValueIdx

section
variable (A0 : (⟨5, ![32768, 1, 1, 481, 2]⟩ : Shape).Idx → EReal) (A1 : (⟨5, ![32768, 5, 1, 96, 2]⟩ : Shape).Idx → EReal)
  (A2 : (⟨5, ![32768, 1, 5, 96, 2]⟩ : Shape).Idx → EReal)

/-- Batch row `b` of the frame, planar: column `481 c + f` holds bin `f`, part `c`. -/
def row0 (b : Nat) : Nat → EReal := fun col => at5 A0 b 0 0 (col % 481) (col / 481)
/-- Batch row `b` of the coefficients, planar: column `480 c + 96 o + f` holds slot `o`, bin `f`, part `c`. -/
def row1 (b : Nat) : Nat → EReal := fun col => at5 A1 b ((col % 480) / 96) 0 (col % 96) (col / 480)
/-- Batch row `b` of the ring buffer, planar, laid out as the coefficients' row. -/
def row2 (b : Nat) : Nat → EReal := fun col => at5 A2 b 0 ((col % 480) / 96) (col % 96) (col / 480)

/-- The new ring buffer's real part at slot-major position `96 o + f`. -/
theorem nbR_planar (b j o f : Nat) (hj : j = 96 * o + f) (ho : o < 5) (hf : f < 96) :
    nbR (row0 A0 b) (row2 A2 b) j = nbAt A0 A2 b o f 0 := by
  subst hj
  unfold nbR nbAt row0 row2
  by_cases h : o < 4
  · rw [if_pos (by omega), if_pos h]
    exact at5_congr A2 rfl rfl (by omega) (by omega) (by omega)
  · rw [if_neg (by omega), if_neg h]
    exact at5_congr A0 rfl rfl rfl (by omega) (by omega)

/-- The new ring buffer's imaginary part at slot-major position `96 o + f`. -/
theorem nbI_planar (b j o f : Nat) (hj : j = 96 * o + f) (ho : o < 5) (hf : f < 96) :
    nbI (row0 A0 b) (row2 A2 b) j = nbAt A0 A2 b o f 1 := by
  subst hj
  unfold nbI nbAt row0 row2
  by_cases h : o < 4
  · rw [if_pos (by omega), if_pos h]
    exact at5_congr A2 rfl rfl (by omega) (by omega) (by omega)
  · rw [if_neg (by omega), if_neg h]
    exact at5_congr A0 rfl rfl rfl (by omega) (by omega)

/-- Slot `o`'s product, real part. -/
theorem pRe_planar (b j o f : Nat) (hj : j = 96 * o + f) (ho : o < 5) (hf : f < 96) :
    pRe (row0 A0 b) (row1 A1 b) (row2 A2 b) j = tRe A0 A1 A2 b f o := by
  unfold pRe tRe
  rw [nbR_planar A0 A2 b j o f hj ho hf, nbI_planar A0 A2 b j o f hj ho hf]
  subst hj
  unfold row1
  rw [at5_congr A1 (rfl : b = b) (by omega : (96 * o + f) % 480 / 96 = o) (rfl : 0 = 0) (by omega : (96 * o + f) % 96 = f) (by omega : (96 * o + f) / 480 = 0),
    at5_congr A1 (rfl : b = b) (by omega : (480 + (96 * o + f)) % 480 / 96 = o) (rfl : 0 = 0) (by omega : (480 + (96 * o + f)) % 96 = f) (by omega : (480 + (96 * o + f)) / 480 = 1)]

/-- Slot `o`'s product, imaginary part. -/
theorem pIm_planar (b j o f : Nat) (hj : j = 96 * o + f) (ho : o < 5) (hf : f < 96) :
    pIm (row0 A0 b) (row1 A1 b) (row2 A2 b) j = tIm A0 A1 A2 b f o := by
  unfold pIm tIm
  rw [nbR_planar A0 A2 b j o f hj ho hf, nbI_planar A0 A2 b j o f hj ho hf]
  subst hj
  unfold row1
  rw [at5_congr A1 (rfl : b = b) (by omega : (96 * o + f) % 480 / 96 = o) (rfl : 0 = 0) (by omega : (96 * o + f) % 96 = f) (by omega : (96 * o + f) / 480 = 0),
    at5_congr A1 (rfl : b = b) (by omega : (480 + (96 * o + f)) % 480 / 96 = o) (rfl : 0 = 0) (by omega : (480 + (96 * o + f)) % 96 = f) (by omega : (480 + (96 * o + f)) / 480 = 1)]

/-- The enhanced frame's entry is its planar row at column `481 c + f`. -/
theorem rowOut3_planar (i : (⟨5, ![32768, 1, 1, 481, 2]⟩ : Shape).Idx) :
    rowOut3 (row0 A0 (i 0).val) (row1 A1 (i 0).val) (row2 A2 (i 0).val) ((i 4).val * 481 + (i 3).val) = enhanced A0 A1 A2 i := by
  have h1 : (i 1).val < 1 := (i 1).isLt
  have h2 : (i 2).val < 1 := (i 2).isLt
  have h3 : (i 3).val < 481 := (i 3).isLt
  have h4 : (i 4).val < 2 := (i 4).isLt
  -- the untouched entry, as the frame's row reads it
  have hkeep : row0 A0 (i 0).val ((i 4).val * 481 + (i 3).val) = A0 i := by
    rw [at5_apply A0 i]; unfold row0
    exact at5_congr A0 rfl (by omega) (by omega) (by omega) (by omega)
  unfold rowOut3 enhanced
  by_cases hlow : (i 3).val < 96
  · rw [if_pos hlow]
    by_cases hc : (i 4).val = 0
    · rw [if_pos hc, if_pos (by omega)]
      unfold reSum sumRe
      rw [pRe_planar A0 A1 A2 _ _ 0 (i 3).val (by omega) (by omega) hlow, pRe_planar A0 A1 A2 _ _ 1 (i 3).val (by omega) (by omega) hlow,
        pRe_planar A0 A1 A2 _ _ 2 (i 3).val (by omega) (by omega) hlow, pRe_planar A0 A1 A2 _ _ 3 (i 3).val (by omega) (by omega) hlow,
        pRe_planar A0 A1 A2 _ _ 4 (i 3).val (by omega) (by omega) hlow]
    · rw [if_neg hc, if_neg (by omega), if_neg (by omega), if_pos (by omega)]
      unfold imSum sumIm
      rw [pIm_planar A0 A1 A2 _ _ 0 (i 3).val (by omega) (by omega) hlow, pIm_planar A0 A1 A2 _ _ 1 (i 3).val (by omega) (by omega) hlow,
        pIm_planar A0 A1 A2 _ _ 2 (i 3).val (by omega) (by omega) hlow, pIm_planar A0 A1 A2 _ _ 3 (i 3).val (by omega) (by omega) hlow,
        pIm_planar A0 A1 A2 _ _ 4 (i 3).val (by omega) (by omega) hlow]
  · rw [if_neg hlow]
    by_cases hc : (i 4).val = 0
    · rw [if_neg (by omega), if_pos (by omega)]; exact hkeep
    · rw [if_neg (by omega), if_neg (by omega), if_neg (by omega)]; exact hkeep

/-- The new ring buffer's entry is its planar row at column `480 c + 96 o + f`. -/
theorem rowOut4_planar (i : (⟨5, ![32768, 1, 5, 96, 2]⟩ : Shape).Idx) :
    rowOut4 (row0 A0 (i 0).val) (row2 A2 (i 0).val) ((i 4).val * 480 + ((i 2).val * 96 + (i 3).val)) = newBuf A0 A2 i := by
  have h2 : (i 2).val < 5 := (i 2).isLt
  have h3 : (i 3).val < 96 := (i 3).isLt
  have h4 : (i 4).val < 2 := (i 4).isLt
  unfold rowOut4 newBuf
  by_cases hc : (i 4).val = 0
  · rw [if_pos (by omega), nbR_planar A0 A2 _ _ (i 2).val (i 3).val (by omega) h2 h3]
    unfold nbAt; rw [hc]
  · have hc1 : (i 4).val = 1 := by omega
    rw [if_neg (by omega), nbI_planar A0 A2 _ _ (i 2).val (i 3).val (by omega) h2 h3]
    unfold nbAt; rw [hc1]

end

end Cert.RingFilter

end
-- ==== Proof.RefRead.lean ====
/-
  The reference's two results, read entry by entry, are the specification's.

  The reference builds the new ring buffer by one concatenation (old slots 1–4, then the frame's low bins), splits it
  and the transposed coefficients into real and imaginary parts, multiplies, sums over the five slots (an extended-real
  sum started at `0`), interleaves the two sums again and puts the frame's high bins behind them. Each stage is read at
  an index by the generated stage lemmas; the three concatenations are read by hand, by the side of the seam the index
  falls on.
-/
import proofs.«115475_j55765855371911_2_alg».proof.Proof.Gen.ReferenceIdeal.Run
import proofs.«115475_j55765855371911_2_alg».proof.Proof.Gen.ReferenceIdeal.Read
import proofs.«115475_j55765855371911_2_alg».proof.Proof.Planar
import Idealize.ShloMosaic.Lib.Pipeline.Value

noncomputable section

namespace Cert.ReferenceIdeal.RefValue

open Cert.ReferenceIdeal Cert.ReferenceIdeal.Gen Cert.ReferenceIdeal.Read Cert.RingFilter
open Idealize.ShloMosaic Idealize.ShloMosaic.ValueIdx

variable (x0 : S32768x1x1x481x2.Idx → EReal) (x1 : S32768x5x1x96x2.Idx → EReal) (x2 : S32768x1x5x96x2.Idx → EReal)

/-! ## The new ring buffer -/

/-- The concatenation along the slot axis: a slot below 4 is the old buffer's next slot, slot 4 the frame's low bins. -/
theorem v2_apply (j : S32768x1x5x96x2.Idx) : val_main_v2 (F := Ideal) x0 x2 j = newBuf x0 x2 j := by
  have h1 : (j 1).val < 1 := (j 1).isLt
  have h2 : (j 2).val < 5 := (j 2).isLt
  have h3 : (j 3).val < 96 := (j 3).isLt
  unfold val_main_v2 newBuf nbAt
  by_cases h : (j 2).val < 4
  · rw [if_pos h]
    refine (concatenate_pair_apply_left (t := S32768x1x5x96x2) (s₁ := S32768x1x4x96x2) (s₂ := S32768x1x1x96x2) (2 : Fin 5) _ _ _ j rfl
      (ix5 (j 0) (j 1) (⟨(j 2).val, h⟩ : Fin 4) (j 3) (j 4) : S32768x1x4x96x2.Idx) (fun b => ?_)).trans ?_
    · match b with
      | ⟨0, _⟩ => rfl
      | ⟨1, _⟩ => rfl
      | ⟨2, _⟩ => rfl
      | ⟨3, _⟩ => rfl
      | ⟨4, _⟩ => rfl
    · rw [val_main_v1_apply, at5_apply x2]
      exact at5_congr x2 rfl (by show (j 1).val = 0; omega) (by show 1 + (j 2).val = (j 2).val + 1; omega) rfl rfl
  · rw [if_neg h]
    refine (concatenate_pair_apply_right (t := S32768x1x5x96x2) (s₁ := S32768x1x4x96x2) (s₂ := S32768x1x1x96x2) (2 : Fin 5) _ _ _ j rfl rfl
      (ix5 (j 0) (j 1) (⟨0, Nat.one_pos⟩ : Fin 1) (j 3) (j 4) : S32768x1x1x96x2.Idx) (fun b hb => ?_) ?_).trans ?_
    · match b, hb with
      | ⟨0, _⟩, _ => rfl
      | ⟨1, _⟩, _ => rfl
      | ⟨2, _⟩, hb => exact absurd (Fin.ext rfl) hb
      | ⟨3, _⟩, _ => rfl
      | ⟨4, _⟩, _ => rfl
    · show 0 + 4 = (j 2).val; omega
    · rw [val_main_v0_apply, at5_apply x0]
      exact at5_congr x0 rfl (by show (j 1).val = 0; omega) rfl rfl rfl

/-! ## Real and imaginary parts at (batch, slot, bin) -/

/-- The row-major position of an index of [32768, 1, 5, 96], as the generated reshape lemmas spell it. -/
abbrev pos4 (j : S32768x1x5x96.Idx) : Nat := (((j 0).val * 1 + (j 1).val) * 5 + (j 2).val) * 96 + (j 3).val

theorem pos4_batch (j : S32768x1x5x96.Idx) : pos4 j / 480 = (j 0).val := by
  have h1 : (j 1).val < 1 := (j 1).isLt
  have h2 : (j 2).val < 5 := (j 2).isLt
  have h3 : (j 3).val < 96 := (j 3).isLt
  show ((((j 0).val * 1 + (j 1).val) * 5 + (j 2).val) * 96 + (j 3).val) / 480 = (j 0).val
  omega
theorem pos4_slot (j : S32768x1x5x96.Idx) : pos4 j / 96 % 5 = (j 2).val := by
  have h1 : (j 1).val < 1 := (j 1).isLt
  have h2 : (j 2).val < 5 := (j 2).isLt
  have h3 : (j 3).val < 96 := (j 3).isLt
  show ((((j 0).val * 1 + (j 1).val) * 5 + (j 2).val) * 96 + (j 3).val) / 96 % 5 = (j 2).val
  omega
theorem pos4_bin (j : S32768x1x5x96.Idx) : pos4 j / 1 % 96 = (j 3).val := by
  have h1 : (j 1).val < 1 := (j 1).isLt
  have h2 : (j 2).val < 5 := (j 2).isLt
  have h3 : (j 3).val < 96 := (j 3).isLt
  show ((((j 0).val * 1 + (j 1).val) * 5 + (j 2).val) * 96 + (j 3).val) / 1 % 96 = (j 3).val
  omega

/-- The new ring buffer's real parts. -/
theorem v5_apply (j : S32768x1x5x96.Idx) :
    val_main_v5 (F := Ideal) x0 x2 j = nbAt x0 x2 (j 0).val (j 2).val (j 3).val 0 := by
  rw [val_main_v5_apply, val_main_v4_apply, v2_apply]
  show nbAt x0 x2 (pos4 j / 480) (pos4 j / 96 % 5) (pos4 j / 1 % 96) 0 = _
  rw [pos4_batch, pos4_slot, pos4_bin]

/-- The new ring buffer's imaginary parts. -/
theorem v7_apply (j : S32768x1x5x96.Idx) :
    val_main_v7 (F := Ideal) x0 x2 j = nbAt x0 x2 (j 0).val (j 2).val (j 3).val 1 := by
  rw [val_main_v7_apply, val_main_v6_apply, v2_apply]
  show nbAt x0 x2 (pos4 j / 480) (pos4 j / 96 % 5) (pos4 j / 1 % 96) (1 + 0) = _
  rw [pos4_batch, pos4_slot, pos4_bin]

/-- The coefficients' real parts (the transpose puts the slot axis second). -/
theorem v9_apply (j : S32768x1x5x96.Idx) :
    val_main_v9 (F := Ideal) x1 j = at5 x1 (j 0).val (j 2).val 0 (j 3).val 0 := by
  rw [val_main_v9_apply, val_main_v8_apply, val_main_v3_apply, at5_apply x1]
  show at5 x1 (pos4 j / 480) (pos4 j / 96 % 5) 0 (pos4 j / 1 % 96) 0 = _
  rw [pos4_batch, pos4_slot, pos4_bin]

/-- The coefficients' imaginary parts. -/
theorem v11_apply (j : S32768x1x5x96.Idx) :
    val_main_v11 (F := Ideal) x1 j = at5 x1 (j 0).val (j 2).val 0 (j 3).val 1 := by
  rw [val_main_v11_apply, val_main_v10_apply, val_main_v3_apply, at5_apply x1]
  show at5 x1 (pos4 j / 480) (pos4 j / 96 % 5) 0 (pos4 j / 1 % 96) (1 + 0) = _
  rw [pos4_batch, pos4_slot, pos4_bin]

/-- One slot's product, real part. -/
theorem v14_apply (j : S32768x1x5x96.Idx) :
    val_main_v14 (F := Ideal) x0 x1 x2 j = tRe x0 x1 x2 (j 0).val (j 3).val (j 2).val := by
  rw [val_main_v14_apply, val_main_v12_apply, val_main_v13_apply, v5_apply, v7_apply, v9_apply, v11_apply]
  rfl

/-- One slot's product, imaginary part. -/
theorem v18_apply (j : S32768x1x5x96.Idx) :
    val_main_v18 (F := Ideal) x0 x1 x2 j = tIm x0 x1 x2 (j 0).val (j 3).val (j 2).val := by
  rw [val_main_v18_apply, val_main_v16_apply, val_main_v17_apply, v5_apply, v7_apply, v9_apply, v11_apply]
  rfl

/-! ## The sums over the five slots -/

/-- The real parts' sum: an extended-real sum from `0` over the slot axis, written out. -/
theorem v15_apply (i : S32768x1x96.Idx) :
    val_main_v15 (F := Ideal) x0 x1 x2 i = sumRe x0 x1 x2 (i 0).val (i 2).val := by
  rw [val_main_v15_apply, Fin.sum_univ_five, v14_apply, v14_apply, v14_apply, v14_apply, v14_apply, val_main_cst_apply]
  show Ideal.ofBits .f32 0x00000000#32 + _ = _
  rw [Ideal.ofBits_zero_f32, zero_add]
  rfl

/-- The imaginary parts' sum. -/
theorem v19_apply (i : S32768x1x96.Idx) :
    val_main_v19 (F := Ideal) x0 x1 x2 i = sumIm x0 x1 x2 (i 0).val (i 2).val := by
  rw [val_main_v19_apply, Fin.sum_univ_five, v18_apply, v18_apply, v18_apply, v18_apply, v18_apply, val_main_cst_0_apply]
  show Ideal.ofBits .f32 0x00000000#32 + _ = _
  rw [Ideal.ofBits_zero_f32, zero_add]
  rfl

/-! ## The enhanced frame -/

/-- The two sums interleaved on a last axis of two. -/
theorem v22_apply (j : S32768x1x96x2.Idx) :
    val_main_v22 (F := Ideal) x0 x1 x2 j
      = if (j 3).val = 0 then sumRe x0 x1 x2 (j 0).val (j 2).val else sumIm x0 x1 x2 (j 0).val (j 2).val := by
  have h3 : (j 3).val < 2 := (j 3).isLt
  unfold val_main_v22
  by_cases h : (j 3).val = 0
  · rw [if_pos h]
    refine (concatenate_pair_apply_left (t := S32768x1x96x2) (s₁ := S32768x1x96x1) (s₂ := S32768x1x96x1) (3 : Fin 4) _ _ _ j rfl
      (ix4 (j 0) (j 1) (j 2) (⟨0, Nat.one_pos⟩ : Fin 1) : S32768x1x96x1.Idx) (fun b => ?_)).trans ?_
    · match b with
      | ⟨0, _⟩ => rfl
      | ⟨1, _⟩ => rfl
      | ⟨2, _⟩ => rfl
      | ⟨3, _⟩ => exact h.symm
    · rw [val_main_v20_apply, v15_apply]
  · rw [if_neg h]
    refine (concatenate_pair_apply_right (t := S32768x1x96x2) (s₁ := S32768x1x96x1) (s₂ := S32768x1x96x1) (3 : Fin 4) _ _ _ j rfl rfl
      (ix4 (j 0) (j 1) (j 2) (⟨0, Nat.one_pos⟩ : Fin 1) : S32768x1x96x1.Idx) (fun b hb => ?_) ?_).trans ?_
    · match b, hb with
      | ⟨0, _⟩, _ => rfl
      | ⟨1, _⟩, _ => rfl
      | ⟨2, _⟩, _ => rfl
      | ⟨3, _⟩, hb => exact absurd (Fin.ext rfl) hb
    · show 0 + 1 = (j 3).val; omega
    · rw [val_main_v21_apply, v19_apply]

/-- The reference's first result is the enhanced frame: filtered low bins, then the frame's own high bins. -/
theorem v25_apply (i : S32768x1x1x481x2.Idx) : val_main_v25 (F := Ideal) x0 x1 x2 i = enhanced x0 x1 x2 i := by
  have h1 : (i 1).val < 1 := (i 1).isLt
  have h2 : (i 2).val < 1 := (i 2).isLt
  have h3 : (i 3).val < 481 := (i 3).isLt
  unfold val_main_v25 enhanced
  by_cases h : (i 3).val < 96
  · rw [if_pos h]
    refine (concatenate_pair_apply_left (t := S32768x1x1x481x2) (s₁ := S32768x1x1x96x2) (s₂ := S32768x1x1x385x2) (3 : Fin 5) _ _ _ i rfl
      (ix5 (i 0) (i 1) (i 2) (⟨(i 3).val, h⟩ : Fin 96) (i 4) : S32768x1x1x96x2.Idx) (fun b => ?_)).trans ?_
    · match b with
      | ⟨0, _⟩ => rfl
      | ⟨1, _⟩ => rfl
      | ⟨2, _⟩ => rfl
      | ⟨3, _⟩ => rfl
      | ⟨4, _⟩ => rfl
    · rw [val_main_v23_apply, v22_apply]
  · rw [if_neg h]
    refine (concatenate_pair_apply_right (t := S32768x1x1x481x2) (s₁ := S32768x1x1x96x2) (s₂ := S32768x1x1x385x2) (3 : Fin 5) _ _ _ i rfl rfl
      (ix5 (i 0) (i 1) (i 2) (⟨(i 3).val - 96, by omega⟩ : Fin 385) (i 4) : S32768x1x1x385x2.Idx) (fun b hb => ?_) ?_).trans ?_
    · match b, hb with
      | ⟨0, _⟩, _ => rfl
      | ⟨1, _⟩, _ => rfl
      | ⟨2, _⟩, _ => rfl
      | ⟨3, _⟩, hb => exact absurd (Fin.ext rfl) hb
      | ⟨4, _⟩, _ => rfl
    · show (i 3).val - 96 + 96 = (i 3).val; omega
    · rw [val_main_v24_apply]
      refine congrArg x0 (funext fun a => Fin.ext ?_)
      match a with
      | ⟨0, _⟩ => rfl
      | ⟨1, _⟩ => rfl
      | ⟨2, _⟩ => rfl
      | ⟨3, _⟩ => show 96 + ((i 3).val - 96) = (i 3).val; omega
      | ⟨4, _⟩ => rfl

/-! ## The two results as whole arrays -/

theorem result0_eq : val_main_v25 (F := Ideal) x0 x1 x2 = enhanced x0 x1 x2 := funext (v25_apply x0 x1 x2)
theorem result1_eq : val_main_v2 (F := Ideal) x0 x2 = newBuf x0 x2 := funext (v2_apply x0 x2)

end Cert.ReferenceIdeal.RefValue

end
-- ==== Proof.Body.lean ====
/-
  What the kernel body leaves in its two output blocks.

  At a grid point the body holds one block of 512 batch rows of each planar argument (`X0`: the frame, 962 columns;
  `X1`, `X2`: coefficients and ring buffer, 960 columns). Every value it stores at row `r` depends on row `r` of the three
  blocks only, and is the specification's row function of those rows: the block of the enhanced frame is
  `rowOut3` of the rows, the block of the new ring buffer `rowOut4`.

  The body fills the first block by four stores (filtered real parts, untouched real parts, filtered imaginary parts,
  untouched imaginary parts) and the second by two (real parts, imaginary parts); a list of stores whose payloads all
  restrict one function leaves that function wherever a store covers.
-/
import proofs.«115475_j55765855371911_2_alg».proof.Proof.Gen.KernelIdeal.Frame
import proofs.«115475_j55765855371911_2_alg».proof.Proof.Spec
import Idealize.ShloMosaic.Lib.Pipeline.Value
import Idealize.ShloMosaic.Lib.Tactic

noncomputable section

namespace Cert.KernelIdeal.Body

open Cert.KernelIdeal Cert.KernelIdeal.Gen Cert.RingFilter
open Idealize.ShloMosaic Idealize.ShloMosaic.TcCoe Idealize.ShloMosaic.ValueIdx Idealize.ShloMosaic.Tactic Idealize.SL.Sem

/-! ## Reading through a rectangle, and the layout operations of the body, at natural-number coordinates -/

theorem at2_congr {n0 n1 : Nat} (X : (⟨2, ![n0, n1]⟩ : Shape).Idx → EReal) {a b a' b' : Nat} (ha : a = a') (hb : b = b') :
    at2 X a b = at2 X a' b' := by subst ha hb; rfl

/-- A load through a unit-stride rectangle reads the buffer at the rectangle's offsets plus the local coordinates. -/
theorem ld_apply {N0 N1 : Nat} (X : (⟨2, ![N0, N1]⟩ : Shape).Idx → EReal) (o0 o1 n0 n1 : Nat)
    (inb : ∀ a, (![o0, o1] : Fin 2 → Nat) a + (![n0, n1] : Fin 2 → Nat) a ≤ (⟨2, ![N0, N1]⟩ : Shape).size a)
    (k : (⟨2, ![n0, n1]⟩ : Shape).Idx) :
    View.ld (Val := Elt Ideal) (e' := .f32) X (Rect.unit ![o0, o1] ![n0, n1] inb) k = at2 X (o0 + (k 0).val) (o1 + (k 1).val) := by
  show X ((Rect.unit (s := (⟨2, ![N0, N1]⟩ : Shape)) ![o0, o1] ![n0, n1] inb).idx k) = _
  rw [at2_apply X]
  exact at2_congr X (by show o0 + 1 * (k 0).val = _; omega) (by show o1 + 1 * (k 1).val = _; omega)

/-- The same at natural-number coordinates inside the rectangle. -/
theorem at2_ld {N0 N1 : Nat} (X : (⟨2, ![N0, N1]⟩ : Shape).Idx → EReal) (o0 o1 n0 n1 : Nat)
    (inb : ∀ a, (![o0, o1] : Fin 2 → Nat) a + (![n0, n1] : Fin 2 → Nat) a ≤ (⟨2, ![N0, N1]⟩ : Shape).size a)
    (a b : Nat) (ha : a < n0) (hb : b < n1) :
    at2 (n0 := n0) (n1 := n1) (View.ld (Val := Elt Ideal) (e' := .f32) X (Rect.unit ![o0, o1] ![n0, n1] inb)) a b = at2 X (o0 + a) (o1 + b) := by
  rw [at2_of_lt _ ha hb, ld_apply]
  rfl

/-- A 96-column window of a 480-column value, at an index. -/
theorem window_apply (off : Nat) (v : Vec Ideal S512x480 .f32) (h : S512x480.Slices ![0, off] S512x96) (x : S512x96.Idx) :
    extractStridedSlice S512x96 ![0, off] v h x = at2 v (x 0).val (off + (x 1).val) := by
  have hx1 : (x 1).val < 96 := (x 1).isLt
  have hoff : off + 96 ≤ 480 := by have := h.2 1; simpa using this
  rw [extractStridedSlice_apply ![0, off] v h x (ix2 (x 0) (⟨off + (x 1).val, by omega⟩ : Fin 480) : S512x480.Idx)
    (fun a => by
      match a with
      | ⟨0, _⟩ => show (x 0).val = 0 + (x 0).val; omega
      | ⟨1, _⟩ => rfl)]
  rw [at2_apply v]

/-- The ring-buffer update on one block: columns 96–479 of the old half-row, then the 96 new columns. -/
theorem pay6_apply (v0 : Vec Ideal S512x96 .f32) (v12 : Vec Ideal S512x480 .f32) (k : S512x480.Idx) :
    k0_pay6 v0 v12 k = if (k 1).val < 384 then at2 v12 (k 0).val ((k 1).val + 96) else at2 v0 (k 0).val ((k 1).val - 384) := by
  have hk1 : (k 1).val < 480 := (k 1).isLt
  unfold k0_pay6
  dsimp only
  by_cases h : (k 1).val < 384
  · rw [if_pos h]
    refine (concatenate_pair_apply_left (t := S512x480) (s₁ := S512x384) (s₂ := S512x96) (1 : Fin 2) _ _ _ k rfl (ix2 (k 0) (⟨(k 1).val, h⟩ : Fin 384) : S512x384.Idx) (fun b => ?_)).trans ?_
    · match b with
      | ⟨0, _⟩ => rfl
      | ⟨1, _⟩ => rfl
    · rw [extractStridedSlice_apply ![0, 96] _ _ _ (ix2 (k 0) (⟨(k 1).val + 96, by omega⟩ : Fin 480) : S512x480.Idx)
        (fun a => by
          match a with
          | ⟨0, _⟩ => show (k 0).val = 0 + (k 0).val; omega
          | ⟨1, _⟩ => show (k 1).val + 96 = 96 + (k 1).val; omega)]
      rw [shapeCast_self, at2_apply v12]
  · rw [if_neg h]
    refine (concatenate_pair_apply_right (t := S512x480) (s₁ := S512x384) (s₂ := S512x96) (1 : Fin 2) _ _ _ k rfl rfl (ix2 (k 0) (⟨(k 1).val - 384, by omega⟩ : Fin 96) : S512x96.Idx) (fun b hb => ?_) ?_).trans ?_
    · match b, hb with
      | ⟨0, _⟩, _ => rfl
      | ⟨1, _⟩, hb => exact absurd (Fin.ext rfl) hb
    · show (k 1).val - 384 + 384 = (k 1).val; omega
    · rw [shapeCast_self, at2_apply v0]

/-- The imaginary half goes through the same two operations. -/
theorem pay7_eq : @k0_pay7 = @k0_pay6 := rfl

/-! ## The products and their sums over the five slots, on one block -/

section Block
variable (X0 : Vec Ideal S512x962 .f32) (X1 X2 : Vec Ideal S512x960 .f32)

/-- The six half-rows the body loads: the frame's 96 low bins (real, imaginary), and the real and imaginary halves of
    the coefficients and of the ring buffer. -/
abbrev L0r : Vec Ideal S512x96 .f32 := View.ld (Val := Elt Ideal) (e' := .f32) X0 (Rect.unit (s := S512x962) ![0, 0] S512x96.size Facts₀.inb_S512x962_S512x96_0_0)
abbrev L0i : Vec Ideal S512x96 .f32 := View.ld (Val := Elt Ideal) (e' := .f32) X0 (Rect.unit (s := S512x962) ![0, 481] S512x96.size Facts₀.inb_S512x962_S512x96_0_481)
abbrev L1r : Vec Ideal S512x480 .f32 := View.ld (Val := Elt Ideal) (e' := .f32) X1 (Rect.unit (s := S512x960) ![0, 0] S512x480.size Facts₀.inb_S512x960_S512x480_0_0)
abbrev L1i : Vec Ideal S512x480 .f32 := View.ld (Val := Elt Ideal) (e' := .f32) X1 (Rect.unit (s := S512x960) ![0, 480] S512x480.size Facts₀.inb_S512x960_S512x480_0_480)
abbrev L2r : Vec Ideal S512x480 .f32 := View.ld (Val := Elt Ideal) (e' := .f32) X2 (Rect.unit (s := S512x960) ![0, 0] S512x480.size Facts₀.inb_S512x960_S512x480_0_0)
abbrev L2i : Vec Ideal S512x480 .f32 := View.ld (Val := Elt Ideal) (e' := .f32) X2 (Rect.unit (s := S512x960) ![0, 480] S512x480.size Facts₀.inb_S512x960_S512x480_0_480)

/-- The new ring buffer's real half on the block is the row function `nbR` of the block's rows. -/
theorem nbR_blk (k : S512x480.Idx) :
    k0_pay6 (L0r X0) (L2r X2) k = nbR (at2 X0 (k 0).val) (at2 X2 (k 0).val) (k 1).val := by
  have hk0 : (k 0).val < 512 := (k 0).isLt
  have hk1 : (k 1).val < 480 := (k 1).isLt
  rw [pay6_apply]
  unfold nbR
  by_cases h : (k 1).val < 384
  · rw [if_pos h, if_pos h, at2_ld X2 0 0 512 480 _ _ _ hk0 (by omega)]
    exact at2_congr X2 (by omega) (by omega)
  · rw [if_neg h, if_neg h, at2_ld X0 0 0 512 96 _ _ _ hk0 (by omega)]
    exact at2_congr X0 (by omega) (by omega)

/-- Its imaginary half is `nbI`. -/
theorem nbI_blk (k : S512x480.Idx) :
    k0_pay7 (L0i X0) (L2i X2) k = nbI (at2 X0 (k 0).val) (at2 X2 (k 0).val) (k 1).val := by
  have hk0 : (k 0).val < 512 := (k 0).isLt
  have hk1 : (k 1).val < 480 := (k 1).isLt
  rw [pay7_eq, pay6_apply]
  unfold nbI
  by_cases h : (k 1).val < 384
  · rw [if_pos h, if_pos h, at2_ld X2 0 480 512 480 _ _ _ hk0 (by omega)]
    exact at2_congr X2 (by omega) (by omega)
  · rw [if_neg h, if_neg h, at2_ld X0 0 481 512 96 _ _ _ hk0 (by omega)]
    exact at2_congr X0 (by omega) (by omega)

/-- A coefficient half-row at an index. -/
theorem coef_r (k : S512x480.Idx) : k0_pay4 (L1r X1) k = at2 X1 (k 0).val (k 1).val := by
  unfold k0_pay4; dsimp only
  rw [shapeCast_self]
  refine (ld_apply X1 0 0 512 480 _ k).trans ?_
  exact at2_congr X1 (by omega) (by omega)
theorem coef_i (k : S512x480.Idx) : k0_pay5 (L1i X1) k = at2 X1 (k 0).val (480 + (k 1).val) := by
  unfold k0_pay5; dsimp only
  rw [shapeCast_self]
  refine (ld_apply X1 0 480 512 480 _ k).trans ?_
  exact at2_congr X1 (by omega) rfl

/-- The real parts of the products (new ring buffer) × (coefficients), on the block. -/
abbrev prodRe : Vec Ideal S512x480 .f32 :=
  subf (mulf (k0_pay6 (L0r X0) (L2r X2)) (k0_pay4 (L1r X1))) (mulf (k0_pay7 (L0i X0) (L2i X2)) (k0_pay5 (L1i X1)))
/-- Their imaginary parts. -/
abbrev prodIm : Vec Ideal S512x480 .f32 := k0_pay8 (L0r X0) (L0i X0) (L1r X1) (L1i X1) (L2r X2) (L2i X2)

theorem prodRe_blk (k : S512x480.Idx) :
    prodRe X0 X1 X2 k = pRe (at2 X0 (k 0).val) (at2 X1 (k 0).val) (at2 X2 (k 0).val) (k 1).val := by
  show k0_pay6 (L0r X0) (L2r X2) k * k0_pay4 (L1r X1) k - k0_pay7 (L0i X0) (L2i X2) k * k0_pay5 (L1i X1) k = _
  rw [nbR_blk, nbI_blk, coef_r, coef_i]
  rfl

theorem prodIm_blk (k : S512x480.Idx) :
    prodIm X0 X1 X2 k = pIm (at2 X0 (k 0).val) (at2 X1 (k 0).val) (at2 X2 (k 0).val) (k 1).val := by
  show k0_pay6 (L0r X0) (L2r X2) k * k0_pay5 (L1i X1) k + k0_pay7 (L0i X0) (L2i X2) k * k0_pay4 (L1r X1) k = _
  rw [nbR_blk, nbI_blk, coef_r, coef_i]
  rfl

/-- A product half-row at natural-number coordinates. -/
theorem prodRe_at (r j : Nat) (hr : r < 512) (hj : j < 480) :
    at2 (prodRe X0 X1 X2) r j = pRe (at2 X0 r) (at2 X1 r) (at2 X2 r) j := by
  rw [at2_of_lt _ hr hj, prodRe_blk]
theorem prodIm_at (r j : Nat) (hr : r < 512) (hj : j < 480) :
    at2 (prodIm X0 X1 X2) r j = pIm (at2 X0 r) (at2 X1 r) (at2 X2 r) j := by
  rw [at2_of_lt _ hr hj, prodIm_blk]

/-- The filtered real parts: the five slots' products at bin `f`, added first to last. -/
theorem re_blk (x : S512x96.Idx) :
    k0_pay10 (L0r X0) (L0i X0) (L1r X1) (L1i X1) (L2r X2) (L2i X2) x
      = reSum (at2 X0 (x 0).val) (at2 X1 (x 0).val) (at2 X2 (x 0).val) (x 1).val := by
  have hx0 : (x 0).val < 512 := (x 0).isLt
  have hx1 : (x 1).val < 96 := (x 1).isLt
  show extractStridedSlice S512x96 ![0, 0] (prodRe X0 X1 X2) Facts₀.slices_S512x480_o0_0_S512x96 x
      + extractStridedSlice S512x96 ![0, 96] (prodRe X0 X1 X2) Facts₀.slices_S512x480_o0_96_S512x96 x
      + extractStridedSlice S512x96 ![0, 192] (prodRe X0 X1 X2) Facts₀.slices_S512x480_o0_192_S512x96 x
      + extractStridedSlice S512x96 ![0, 288] (prodRe X0 X1 X2) Facts₀.slices_S512x480_o0_288_S512x96 x
      + extractStridedSlice S512x96 ![0, 384] (prodRe X0 X1 X2) Facts₀.slices_S512x480_o0_384_S512x96 x = _
  rw [window_apply 0, window_apply 96, window_apply 192, window_apply 288, window_apply 384,
    prodRe_at X0 X1 X2 _ _ hx0 (by omega), prodRe_at X0 X1 X2 _ _ hx0 (by omega), prodRe_at X0 X1 X2 _ _ hx0 (by omega),
    prodRe_at X0 X1 X2 _ _ hx0 (by omega), prodRe_at X0 X1 X2 _ _ hx0 (by omega)]
  unfold reSum
  rw [Nat.zero_add]

/-- The filtered imaginary parts. -/
theorem im_blk (x : S512x96.Idx) :
    k0_pay1 (k0_pay9 (L0r X0) (L0i X0) (L1r X1) (L1i X1) (L2r X2) (L2i X2)) (k0_pay11 (L0r X0) (L0i X0) (L1r X1) (L1i X1) (L2r X2) (L2i X2)) x
      = imSum (at2 X0 (x 0).val) (at2 X1 (x 0).val) (at2 X2 (x 0).val) (x 1).val := by
  have hx0 : (x 0).val < 512 := (x 0).isLt
  have hx1 : (x 1).val < 96 := (x 1).isLt
  show extractStridedSlice S512x96 ![0, 0] (prodIm X0 X1 X2) Facts₀.slices_S512x480_o0_0_S512x96 x
      + extractStridedSlice S512x96 ![0, 96] (prodIm X0 X1 X2) Facts₀.slices_S512x480_o0_96_S512x96 x
      + extractStridedSlice S512x96 ![0, 192] (prodIm X0 X1 X2) Facts₀.slices_S512x480_o0_192_S512x96 x
      + extractStridedSlice S512x96 ![0, 288] (prodIm X0 X1 X2) Facts₀.slices_S512x480_o0_288_S512x96 x
      + extractStridedSlice S512x96 ![0, 384] (prodIm X0 X1 X2) Facts₀.slices_S512x480_o0_384_S512x96 x = _
  rw [window_apply 0, window_apply 96, window_apply 192, window_apply 288, window_apply 384,
    prodIm_at X0 X1 X2 _ _ hx0 (by omega), prodIm_at X0 X1 X2 _ _ hx0 (by omega), prodIm_at X0 X1 X2 _ _ hx0 (by omega),
    prodIm_at X0 X1 X2 _ _ hx0 (by omega), prodIm_at X0 X1 X2 _ _ hx0 (by omega)]
  unfold imSum
  rw [Nat.zero_add]

end Block

/-! ## What the stores leave -/

section Stores
variable (c : Dev nD) (i : grid0.Coords) (a1 : Memref sig .tc .vmem S512x962 .f32) (h1 : a1.IsWhole)
  (a2 : Memref sig .tc .vmem S512x960 .f32) (h2 : a2.IsWhole) (a3 : Memref sig .tc .vmem S512x960 .f32) (h3 : a3.IsWhole)
  (a4 : Memref sig .tc .vmem S512x962 .f32) (h4 : a4.IsWhole) (a5 : Memref sig .tc .vmem S512x960 .f32) (h5 : a5.IsWhole)
  (X0 : Vec Ideal S512x962 .f32) (X1 X2 : Vec Ideal S512x960 .f32)

/-- The block of the new ring buffer: row `r` is `rowOut4` of row `r` of the frame's and the ring buffer's blocks. -/
theorem out4_eq : out0_A_4 (F := Ideal) c i a1 h1 a2 h2 a3 h3 a4 h4 a5 h5 X0 X1 X2
    = fun y => rowOut4 (at2 X0 (y 0).val) (at2 X2 (y 0).val) (y 1).val := by
  unfold out0_A_4
  rw [View.read_writes_eq_canon _ _ _ (cover0_A_4 c i a1 h1 a2 h2 a3 h3 a4 h4 a5 h5 X0 X1 X2)]
  funext y
  refine View.canon_apply_of_pieces (fun y : S512x960.Idx => rowOut4 (at2 X0 (y 0).val) (at2 X2 (y 0).val) (y 1).val) _ ?_ y
    (cover0_A_4 c i a1 h1 a2 h2 a3 h3 a4 h4 a5 h5 X0 X1 X2 y)
  unfold kernelRun0_A
  dsimp only
  sl_unfold_words
  simp only [View.readAt_eq_ld, h1.read_unread, h2.read_unread, h3.read_unread]
  intro p hp x
  simp only [List.mem_cons, List.not_mem_nil, or_false] at hp
  rcases hp with rfl | rfl
  · -- the imaginary half, stored at column 480
    have hx1 : (x 1).val < 480 := (x 1).isLt
    show k0_pay7 (L0i X0) (L2i X2) x = rowOut4 (at2 X0 (0 + 1 * (x 0).val)) (at2 X2 (0 + 1 * (x 0).val)) (480 + 1 * (x 1).val)
    rw [nbI_blk]
    unfold rowOut4
    rw [if_neg (by omega), Nat.one_mul, Nat.one_mul, Nat.zero_add, Nat.add_sub_cancel_left]
  · -- the real half, stored at column 0
    have hx1 : (x 1).val < 480 := (x 1).isLt
    show k0_pay6 (L0r X0) (L2r X2) x = rowOut4 (at2 X0 (0 + 1 * (x 0).val)) (at2 X2 (0 + 1 * (x 0).val)) (0 + 1 * (x 1).val)
    rw [nbR_blk]
    unfold rowOut4
    simp only [Nat.one_mul, Nat.zero_add]
    rw [if_pos hx1]

/-- The block of the enhanced frame: row `r` is `rowOut3` of row `r` of the three blocks. -/
theorem out3_eq : out0_A_3 (F := Ideal) c i a1 h1 a2 h2 a3 h3 a4 h4 a5 h5 X0 X1 X2
    = fun y => rowOut3 (at2 X0 (y 0).val) (at2 X1 (y 0).val) (at2 X2 (y 0).val) (y 1).val := by
  unfold out0_A_3
  rw [View.read_writes_eq_canon _ _ _ (cover0_A_3 c i a1 h1 a2 h2 a3 h3 a4 h4 a5 h5 X0 X1 X2)]
  funext y
  refine View.canon_apply_of_pieces (fun y : S512x962.Idx => rowOut3 (at2 X0 (y 0).val) (at2 X1 (y 0).val) (at2 X2 (y 0).val) (y 1).val) _ ?_ y
    (cover0_A_3 c i a1 h1 a2 h2 a3 h3 a4 h4 a5 h5 X0 X1 X2 y)
  unfold kernelRun0_A
  dsimp only
  sl_unfold_words
  simp only [View.readAt_eq_ld, h1.read_unread, h2.read_unread, h3.read_unread]
  intro p hp x
  simp only [List.mem_cons, List.not_mem_nil, or_false] at hp
  rcases hp with rfl | rfl | rfl | rfl
  · -- the untouched imaginary parts, stored at column 577
    have hx1 : (x 1).val < 385 := (x 1).isLt
    show k0_pay3 (View.ld (Val := Elt Ideal) (e' := .f32) X0 (Rect.unit (s := S512x962) ![0, 577] S512x385.size Facts₀.inb_S512x962_S512x385_0_577)) x
      = rowOut3 (at2 X0 (0 + 1 * (x 0).val)) (at2 X1 (0 + 1 * (x 0).val)) (at2 X2 (0 + 1 * (x 0).val)) (577 + 1 * (x 1).val)
    unfold k0_pay3 rowOut3; dsimp only
    rw [shapeCast_self, if_neg (by omega), if_neg (by omega), if_neg (by omega)]
    refine (ld_apply X0 0 577 512 385 _ x).trans ?_
    exact at2_congr X0 (by omega) (by omega)
  · -- the filtered imaginary parts, stored at column 481
    have hx1 : (x 1).val < 96 := (x 1).isLt
    show k0_pay1 (k0_pay9 (L0r X0) (L0i X0) (L1r X1) (L1i X1) (L2r X2) (L2i X2)) (k0_pay11 (L0r X0) (L0i X0) (L1r X1) (L1i X1) (L2r X2) (L2i X2)) x
      = rowOut3 (at2 X0 (0 + 1 * (x 0).val)) (at2 X1 (0 + 1 * (x 0).val)) (at2 X2 (0 + 1 * (x 0).val)) (481 + 1 * (x 1).val)
    rw [im_blk]
    unfold rowOut3
    rw [if_neg (by omega), if_neg (by omega), if_pos (by omega), Nat.one_mul, Nat.one_mul, Nat.zero_add, Nat.add_sub_cancel_left]
  · -- the untouched real parts, stored at column 96
    have hx1 : (x 1).val < 385 := (x 1).isLt
    show k0_pay2 (View.ld (Val := Elt Ideal) (e' := .f32) X0 (Rect.unit (s := S512x962) ![0, 96] S512x385.size Facts₀.inb_S512x962_S512x385_0_96)) x
      = rowOut3 (at2 X0 (0 + 1 * (x 0).val)) (at2 X1 (0 + 1 * (x 0).val)) (at2 X2 (0 + 1 * (x 0).val)) (96 + 1 * (x 1).val)
    unfold k0_pay2 rowOut3; dsimp only
    rw [shapeCast_self, if_neg (by omega), if_pos (by omega)]
    refine (ld_apply X0 0 96 512 385 _ x).trans ?_
    exact at2_congr X0 (by omega) (by omega)
  · -- the filtered real parts, stored at column 0
    have hx1 : (x 1).val < 96 := (x 1).isLt
    show k0_pay10 (L0r X0) (L0i X0) (L1r X1) (L1i X1) (L2r X2) (L2i X2) x
      = rowOut3 (at2 X0 (0 + 1 * (x 0).val)) (at2 X1 (0 + 1 * (x 0).val)) (at2 X2 (0 + 1 * (x 0).val)) (0 + 1 * (x 1).val)
    rw [re_blk]
    unfold rowOut3
    simp only [Nat.one_mul, Nat.zero_add]
    rw [if_pos hx1]

end Stores

end Cert.KernelIdeal.Body

end
-- ==== Proof.Final.lean ====
/-
  From blocks to the two arrays the region leaves.

  Grid point `t` (of 64) holds batch rows `512 t … 512 t + 511` of every array, whole rows: every window's block index is
  `(t, 0)`. So row `r` of an input block is row `512 t + r` of the array the region found, what point `t` writes back is
  rows `512 t …` of ONE whole-array function — row `b` of the result is the row function of row `b` of the three planar
  arguments —, and the 64 blocks cover the array: batch row `b` lies in block `b / 512`.
-/
import proofs.«115475_j55765855371911_2_alg».proof.Proof.Body
import Idealize.ShloMosaic.Lib.Pipeline.Value

noncomputable section

namespace Cert.KernelIdeal.Final

open Cert.KernelIdeal Cert.KernelIdeal.Gen Cert.RingFilter
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The five index maps, decided over the grid: block `(t, 0)` at point `t`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 64 := lt_of_lt_of_eq t.isLt N_0

/-! ## Rows of the input blocks -/

theorem blk0_row (c : Dev nD) (t : Fin cfg0.N) (r : Nat) (hr : r < 512) :
    at2 (iblk m c 0 t : Vec Ideal S512x962 .f32) r = at2 (V m c main_v2 : S32768x962.Idx → EReal) (t.val * 512 + r) := by
  obtain ⟨e0, e1, -⟩ := idx_facts t
  have ht := t_lt t
  funext col
  by_cases hc : col < 962
  · rw [at2_of_lt _ hr hc, at2_of_lt _ (by omega) hc]
    show V m c main_v2 (((cfg0.win 0).blk t).view.emb (ix2 ⟨r, hr⟩ ⟨col, hc⟩)) = V m c main_v2 _
    refine congrArg (V m c main_v2) (funext fun a => Fin.ext ?_)
    match a with
    | ⟨0, _⟩ => show win0_0.index t (0 : Fin 2) * 512 + 1 * r = t.val * 512 + r; rw [e0]; omega
    | ⟨1, _⟩ => show win0_0.index t (1 : Fin 2) * 962 + 1 * col = col; rw [e1]; omega
  · unfold at2; rw [dif_neg (by omega), dif_neg (by omega)]

theorem blk1_row (c : Dev nD) (t : Fin cfg0.N) (r : Nat) (hr : r < 512) :
    at2 (iblk m c 1 t : Vec Ideal S512x960 .f32) r = at2 (V m c main_v5 : S32768x960.Idx → EReal) (t.val * 512 + r) := by
  obtain ⟨-, -, e0, e1, -⟩ := idx_facts t
  have ht := t_lt t
  funext col
  by_cases hc : col < 960
  · rw [at2_of_lt _ hr hc, at2_of_lt _ (by omega) hc]
    show V m c main_v5 (((cfg0.win 1).blk t).view.emb (ix2 ⟨r, hr⟩ ⟨col, hc⟩)) = V m c main_v5 _
    refine congrArg (V m c main_v5) (funext fun a => Fin.ext ?_)
    match a with
    | ⟨0, _⟩ => show win0_1.index t (0 : Fin 2) * 512 + 1 * r = t.val * 512 + r; rw [e0]; omega
    | ⟨1, _⟩ => show win0_1.index t (1 : Fin 2) * 960 + 1 * col = col; rw [e1]; omega
  · unfold at2; rw [dif_neg (by omega), dif_neg (by omega)]

theorem blk2_row (c : Dev nD) (t : Fin cfg0.N) (r : Nat) (hr : r < 512) :
    at2 (iblk m c 2 t : Vec Ideal S512x960 .f32) r = at2 (V m c main_v8 : S32768x960.Idx → EReal) (t.val * 512 + r) := by
  obtain ⟨-, -, -, -, e0, e1, -⟩ := idx_facts t
  have ht := t_lt t
  funext col
  by_cases hc : col < 960
  · rw [at2_of_lt _ hr hc, at2_of_lt _ (by omega) hc]
    show V m c main_v8 (((cfg0.win 2).blk t).view.emb (ix2 ⟨r, hr⟩ ⟨col, hc⟩)) = V m c main_v8 _
    refine congrArg (V m c main_v8) (funext fun a => Fin.ext ?_)
    match a with
    | ⟨0, _⟩ => show win0_2.index t (0 : Fin 2) * 512 + 1 * r = t.val * 512 + r; rw [e0]; omega
    | ⟨1, _⟩ => show win0_2.index t (1 : Fin 2) * 960 + 1 * col = col; rw [e1]; omega
  · unfold at2; rw [dif_neg (by omega), dif_neg (by omega)]

/-! ## The two whole-array functions -/

/-- The enhanced frame, planar: row `b` is `rowOut3` of row `b` of the three planar arguments. -/
def planar3 (c : Dev nD) : S32768x962.Idx → EReal := fun i =>
  rowOut3 (at2 (V m c main_v2 : S32768x962.Idx → EReal) (i 0).val) (at2 (V m c main_v5 : S32768x960.Idx → EReal) (i 0).val)
    (at2 (V m c main_v8 : S32768x960.Idx → EReal) (i 0).val) (i 1).val

/-- The new ring buffer, planar. -/
def planar4 (c : Dev nD) : S32768x960.Idx → EReal := fun i =>
  rowOut4 (at2 (V m c main_v2 : S32768x962.Idx → EReal) (i 0).val) (at2 (V m c main_v8 : S32768x960.Idx → EReal) (i 0).val) (i 1).val

/-! ## What a point writes back -/

theorem flushed3_eq (c : Dev nD) (t : Fin cfg0.N) :
    (dats m 0 c).flushed 3 t = ((cfg0.win 3).blk t).view.read (Elt Ideal) (planar3 m c) := by
  obtain ⟨-, -, -, -, -, -, e0, e1, -⟩ := idx_facts t
  show (cfg0.win 3).cut (grid0.coords t) ((dats m 0 c).after 3 t) = _
  rw [after0_3]
  unfold outsAt0
  dsimp only
  rw [Body.out3_eq c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t)]
  funext j
  have hj0 : (j 0).val < 512 := (j 0).isLt
  show rowOut3 (at2 (iblk m c 0 t : Vec Ideal S512x962 .f32) (j 0).val) (at2 (iblk m c 1 t : Vec Ideal S512x960 .f32) (j 0).val)
      (at2 (iblk m c 2 t : Vec Ideal S512x960 .f32) (j 0).val) (j 1).val
    = rowOut3 (at2 (V m c main_v2 : S32768x962.Idx → EReal) (win0_3.index t (0 : Fin 2) * 512 + 1 * (j 0).val))
      (at2 (V m c main_v5 : S32768x960.Idx → EReal) (win0_3.index t (0 : Fin 2) * 512 + 1 * (j 0).val))
      (at2 (V m c main_v8 : S32768x960.Idx → EReal) (win0_3.index t (0 : Fin 2) * 512 + 1 * (j 0).val))
      (win0_3.index t (1 : Fin 2) * 962 + 1 * (j 1).val)
  rw [blk0_row m c t _ hj0, blk1_row m c t _ hj0, blk2_row m c t _ hj0, e0, e1, Nat.one_mul, Nat.one_mul, Nat.zero_mul, Nat.zero_add]

theorem flushed4_eq (c : Dev nD) (t : Fin cfg0.N) :
    (dats m 0 c).flushed 4 t = ((cfg0.win 4).blk t).view.read (Elt Ideal) (planar4 m c) := by
  obtain ⟨-, -, -, -, -, -, -, -, e0, e1⟩ := idx_facts t
  show (cfg0.win 4).cut (grid0.coords t) ((dats m 0 c).after 4 t) = _
  rw [after0_4]
  unfold outsAt0
  dsimp only
  rw [Body.out4_eq c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t)]
  funext j
  have hj0 : (j 0).val < 512 := (j 0).isLt
  show rowOut4 (at2 (iblk m c 0 t : Vec Ideal S512x962 .f32) (j 0).val) (at2 (iblk m c 2 t : Vec Ideal S512x960 .f32) (j 0).val) (j 1).val
    = rowOut4 (at2 (V m c main_v2 : S32768x962.Idx → EReal) (win0_4.index t (0 : Fin 2) * 512 + 1 * (j 0).val))
      (at2 (V m c main_v8 : S32768x960.Idx → EReal) (win0_4.index t (0 : Fin 2) * 512 + 1 * (j 0).val))
      (win0_4.index t (1 : Fin 2) * 960 + 1 * (j 1).val)
  rw [blk0_row m c t _ hj0, blk2_row m c t _ hj0, e0, e1, Nat.one_mul, Nat.one_mul, Nat.zero_mul, Nat.zero_add]

/-! ## The blocks cover the arrays -/

theorem mem_blk3 (t : Fin cfg0.N) (i : S32768x962.Idx) :
    i ∈ ((cfg0.win 3).blk t).view.set ↔ ∀ a : Fin 2, win0_3.index t a * S512x962.size a ≤ (i a).val ∧ (i a).val < win0_3.index t a * S512x962.size a + S512x962.size a := by
  show i ∈ ((View.whole main_v9_0).slice (win0_3.rect t)).set ↔ _
  rw [View.set_slice_whole, Rect.mem_set_unit]
  exact Iff.rfl

theorem mem_blk4 (t : Fin cfg0.N) (i : S32768x960.Idx) :
    i ∈ ((cfg0.win 4).blk t).view.set ↔ ∀ a : Fin 2, win0_4.index t a * S512x960.size a ≤ (i a).val ∧ (i a).val < win0_4.index t a * S512x960.size a + S512x960.size a := by
  show i ∈ ((View.whole main_v9_1).slice (win0_4.rect t)).set ↔ _
  rw [View.set_slice_whole, Rect.mem_set_unit]
  exact Iff.rfl

theorem cover3 (i : S32768x962.Idx) : ∃ t : Fin cfg0.N, (cfg0.win 3).flush t = true ∧ i ∈ ((cfg0.win 3).blk t).view.set := by
  have hi0 : (i 0).val < 32768 := (i 0).isLt
  have hi1 : (i 1).val < 962 := (i 1).isLt
  have hq : (i 0).val / 512 < cfg0.N := lt_of_lt_of_eq (by omega : (i 0).val / 512 < 64) N_0.symm
  refine ⟨⟨(i 0).val / 512, hq⟩, flush0_3 _, ?_⟩
  obtain ⟨-, -, -, -, -, -, e0, e1, -⟩ := idx_facts ⟨(i 0).val / 512, hq⟩
  have e0' : win0_3.index ⟨(i 0).val / 512, hq⟩ (0 : Fin 2) = (i 0).val / 512 := e0
  rw [mem_blk3]
  intro a
  match a with
  | ⟨0, _⟩ => show win0_3.index _ (0 : Fin 2) * 512 ≤ (i 0).val ∧ (i 0).val < win0_3.index _ (0 : Fin 2) * 512 + 512; rw [e0']; omega
  | ⟨1, _⟩ => show win0_3.index _ (1 : Fin 2) * 962 ≤ (i 1).val ∧ (i 1).val < win0_3.index _ (1 : Fin 2) * 962 + 962; rw [e1]; omega

theorem cover4 (i : S32768x960.Idx) : ∃ t : Fin cfg0.N, (cfg0.win 4).flush t = true ∧ i ∈ ((cfg0.win 4).blk t).view.set := by
  have hi0 : (i 0).val < 32768 := (i 0).isLt
  have hi1 : (i 1).val < 960 := (i 1).isLt
  have hq : (i 0).val / 512 < cfg0.N := lt_of_lt_of_eq (by omega : (i 0).val / 512 < 64) N_0.symm
  refine ⟨⟨(i 0).val / 512, hq⟩, flush0_4 _, ?_⟩
  obtain ⟨-, -, -, -, -, -, -, -, e0, e1⟩ := idx_facts ⟨(i 0).val / 512, hq⟩
  have e0' : win0_4.index ⟨(i 0).val / 512, hq⟩ (0 : Fin 2) = (i 0).val / 512 := e0
  rw [mem_blk4]
  intro a
  match a with
  | ⟨0, _⟩ => show win0_4.index _ (0 : Fin 2) * 512 ≤ (i 0).val ∧ (i 0).val < win0_4.index _ (0 : Fin 2) * 512 + 512; rw [e0']; omega
  | ⟨1, _⟩ => show win0_4.index _ (1 : Fin 2) * 960 ≤ (i 1).val ∧ (i 1).val < win0_4.index _ (1 : Fin 2) * 960 + 960; rw [e1]; omega

/-! ## The arrays after the region -/

theorem final3 (c : Dev nD) : (dats m 0 c).arrAt 3 cfg0.N = planar3 m c :=
  (dats m 0 c).arrAt_eq_of_cover 3 (planar3 m c) (fun t _ => flushed3_eq m c t) cover3

theorem final4 (c : Dev nD) : (dats m 0 c).arrAt 4 cfg0.N = planar4 m c :=
  (dats m 0 c).arrAt_eq_of_cover 4 (planar4 m c) (fun t _ => flushed4_eq m c t) cover4

end Cert.KernelIdeal.Final

end
-- ==== Proof.HostIn.lean ====
/-
  The arrays the kernel's region finds.

  Before the region the host re-lays each argument: a reshape that merges the unit axes (and, for the coefficients and
  the ring buffer, the slot and bin axes), a transpose that brings the real/imaginary axis in front of the merged axis,
  and a reshape that merges those two. Read at natural-number coordinates, batch row `b` of each resulting rank-2 array
  is the planar row of the specification's layout: `row0`, `row1`, `row2`.
-/
import proofs.«115475_j55765855371911_2_alg».proof.Proof.Gen.KernelIdeal.Frame
import proofs.«115475_j55765855371911_2_alg».proof.Proof.Planar
import Idealize.ShloMosaic.Lib.Pipeline.Value
import Idealize.ShloMosaic.Lib.StableHlo.Run

noncomputable section

namespace Cert.KernelIdeal.HostIn

open Cert.KernelIdeal Cert.KernelIdeal.Gen Cert.RingFilter
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The three host chains, as terms of the arguments -/

theorem V_frame (c : Dev nD) : (V m c main_v2 : S32768x962.Idx → EReal)
    = shapeCast S32768x962 (transpose S32768x2x481 [0, 2, 1]
        (shapeCast S32768x481x2 (m ((c : Thread nD τ).loc main_arg0)) Facts₀.shapeCasts_S32768x1x1x481x2_S32768x481x2)
        Facts₀.transposes_S32768x481x2_S32768x2x481_0_2_1) Facts₀.shapeCasts_S32768x2x481_S32768x962 := by
  show StableHlo.after hostOps0 (fun b => m (c, b)) (Proc.devRef .tc main_v2) = _
  after_results
  rfl

theorem V_coef (c : Dev nD) : (V m c main_v5 : S32768x960.Idx → EReal)
    = shapeCast S32768x960 (transpose S32768x2x480 [0, 2, 1]
        (shapeCast S32768x480x2 (m ((c : Thread nD τ).loc main_arg1)) Facts₀.shapeCasts_S32768x5x1x96x2_S32768x480x2)
        Facts₀.transposes_S32768x480x2_S32768x2x480_0_2_1) Facts₀.shapeCasts_S32768x2x480_S32768x960 := by
  show StableHlo.after hostOps0 (fun b => m (c, b)) (Proc.devRef .tc main_v5) = _
  after_results
  rfl

theorem V_buf (c : Dev nD) : (V m c main_v8 : S32768x960.Idx → EReal)
    = shapeCast S32768x960 (transpose S32768x2x480 [0, 2, 1]
        (shapeCast S32768x480x2 (m ((c : Thread nD τ).loc main_arg2)) Facts₀.shapeCasts_S32768x1x5x96x2_S32768x480x2)
        Facts₀.transposes_S32768x480x2_S32768x2x480_0_2_1) Facts₀.shapeCasts_S32768x2x480_S32768x960 := by
  show StableHlo.after hostOps0 (fun b => m (c, b)) (Proc.devRef .tc main_v8) = _
  after_results
  rfl

/-! ## Read at natural-number coordinates -/

/-- The frame's planar array: column `col` of row `b` is bin `col % 481`, part `col / 481`. -/
theorem frame_at (A : S32768x1x1x481x2.Idx → EReal) (b col : Nat) (hb : b < 32768) (hc : col < 962) :
    at2 (shapeCast S32768x962 (transpose S32768x2x481 [0, 2, 1]
        (shapeCast S32768x481x2 A Facts₀.shapeCasts_S32768x1x1x481x2_S32768x481x2)
        Facts₀.transposes_S32768x481x2_S32768x2x481_0_2_1) Facts₀.shapeCasts_S32768x2x481_S32768x962) b col
      = row0 A b col := by
  have hq : col / 481 < 2 := by omega
  have hr : col % 481 < 481 := by omega
  rw [at2_of_lt _ hb hc]
  rw [shapeCast_apply _ Facts₀.shapeCasts_S32768x2x481_S32768x962 _
    (ix3 (⟨b, hb⟩ : Fin 32768) (⟨col / 481, hq⟩ : Fin 2) (⟨col % 481, hr⟩ : Fin 481) : S32768x2x481.Idx)
    (by rw [Shape.rowMajor_val_three, Shape.rowMajor_val_two]; show (b * 2 + col / 481) * 481 + col % 481 = b * 962 + col; omega)]
  rw [transpose_apply [0, 2, 1] _ Facts₀.transposes_S32768x481x2_S32768x2x481_0_2_1 _
    (ix3 (⟨b, hb⟩ : Fin 32768) (⟨col % 481, hr⟩ : Fin 481) (⟨col / 481, hq⟩ : Fin 2) : S32768x481x2.Idx)
    (fun d => by
      match d with
      | ⟨0, _⟩ => rfl
      | ⟨1, _⟩ => rfl
      | ⟨2, _⟩ => rfl)]
  rw [shapeCast_apply _ Facts₀.shapeCasts_S32768x1x1x481x2_S32768x481x2 _
    (ix5 (⟨b, hb⟩ : Fin 32768) (⟨0, Nat.one_pos⟩ : Fin 1) (⟨0, Nat.one_pos⟩ : Fin 1) (⟨col % 481, hr⟩ : Fin 481) (⟨col / 481, hq⟩ : Fin 2) : S32768x1x1x481x2.Idx)
    (by rw [Shape.rowMajor_val_five, Shape.rowMajor_val_three]
        show ((((b * 1 + 0) * 1 + 0) * 481 + col % 481) * 2 + col / 481) = (b * 481 + col % 481) * 2 + col / 481; omega)]
  rw [at5_apply A]
  rfl

/-- The coefficients' planar array: column `col` of row `b` is slot `col % 480 / 96`, bin `col % 96`, part `col / 480`. -/
theorem coef_at (A : S32768x5x1x96x2.Idx → EReal) (b col : Nat) (hb : b < 32768) (hc : col < 960) :
    at2 (shapeCast S32768x960 (transpose S32768x2x480 [0, 2, 1]
        (shapeCast S32768x480x2 A Facts₀.shapeCasts_S32768x5x1x96x2_S32768x480x2)
        Facts₀.transposes_S32768x480x2_S32768x2x480_0_2_1) Facts₀.shapeCasts_S32768x2x480_S32768x960) b col
      = row1 A b col := by
  have hq : col / 480 < 2 := by omega
  have hr : col % 480 < 480 := by omega
  have hs : col % 480 / 96 < 5 := by omega
  have hf : col % 96 < 96 := by omega
  rw [at2_of_lt _ hb hc]
  rw [shapeCast_apply _ Facts₀.shapeCasts_S32768x2x480_S32768x960 _
    (ix3 (⟨b, hb⟩ : Fin 32768) (⟨col / 480, hq⟩ : Fin 2) (⟨col % 480, hr⟩ : Fin 480) : S32768x2x480.Idx)
    (by rw [Shape.rowMajor_val_three, Shape.rowMajor_val_two]; show (b * 2 + col / 480) * 480 + col % 480 = b * 960 + col; omega)]
  rw [transpose_apply [0, 2, 1] _ Facts₀.transposes_S32768x480x2_S32768x2x480_0_2_1 _
    (ix3 (⟨b, hb⟩ : Fin 32768) (⟨col % 480, hr⟩ : Fin 480) (⟨col / 480, hq⟩ : Fin 2) : S32768x480x2.Idx)
    (fun d => by
      match d with
      | ⟨0, _⟩ => rfl
      | ⟨1, _⟩ => rfl
      | ⟨2, _⟩ => rfl)]
  rw [shapeCast_apply _ Facts₀.shapeCasts_S32768x5x1x96x2_S32768x480x2 _
    (ix5 (⟨b, hb⟩ : Fin 32768) (⟨col % 480 / 96, hs⟩ : Fin 5) (⟨0, Nat.one_pos⟩ : Fin 1) (⟨col % 96, hf⟩ : Fin 96) (⟨col / 480, hq⟩ : Fin 2) : S32768x5x1x96x2.Idx)
    (by rw [Shape.rowMajor_val_five, Shape.rowMajor_val_three]
        show ((((b * 5 + col % 480 / 96) * 1 + 0) * 96 + col % 96) * 2 + col / 480) = (b * 480 + col % 480) * 2 + col / 480; omega)]
  rw [at5_apply A]
  rfl

/-- The ring buffer's planar array, laid out as the coefficients'. -/
theorem buf_at (A : S32768x1x5x96x2.Idx → EReal) (b col : Nat) (hb : b < 32768) (hc : col < 960) :
    at2 (shapeCast S32768x960 (transpose S32768x2x480 [0, 2, 1]
        (shapeCast S32768x480x2 A Facts₀.shapeCasts_S32768x1x5x96x2_S32768x480x2)
        Facts₀.transposes_S32768x480x2_S32768x2x480_0_2_1) Facts₀.shapeCasts_S32768x2x480_S32768x960) b col
      = row2 A b col := by
  have hq : col / 480 < 2 := by omega
  have hr : col % 480 < 480 := by omega
  have hs : col % 480 / 96 < 5 := by omega
  have hf : col % 96 < 96 := by omega
  rw [at2_of_lt _ hb hc]
  rw [shapeCast_apply _ Facts₀.shapeCasts_S32768x2x480_S32768x960 _
    (ix3 (⟨b, hb⟩ : Fin 32768) (⟨col / 480, hq⟩ : Fin 2) (⟨col % 480, hr⟩ : Fin 480) : S32768x2x480.Idx)
    (by rw [Shape.rowMajor_val_three, Shape.rowMajor_val_two]; show (b * 2 + col / 480) * 480 + col % 480 = b * 960 + col; omega)]
  rw [transpose_apply [0, 2, 1] _ Facts₀.transposes_S32768x480x2_S32768x2x480_0_2_1 _
    (ix3 (⟨b, hb⟩ : Fin 32768) (⟨col % 480, hr⟩ : Fin 480) (⟨col / 480, hq⟩ : Fin 2) : S32768x480x2.Idx)
    (fun d => by
      match d with
      | ⟨0, _⟩ => rfl
      | ⟨1, _⟩ => rfl
      | ⟨2, _⟩ => rfl)]
  rw [shapeCast_apply _ Facts₀.shapeCasts_S32768x1x5x96x2_S32768x480x2 _
    (ix5 (⟨b, hb⟩ : Fin 32768) (⟨0, Nat.one_pos⟩ : Fin 1) (⟨col % 480 / 96, hs⟩ : Fin 5) (⟨col % 96, hf⟩ : Fin 96) (⟨col / 480, hq⟩ : Fin 2) : S32768x1x5x96x2.Idx)
    (by rw [Shape.rowMajor_val_five, Shape.rowMajor_val_three]
        show ((((b * 1 + 0) * 5 + col % 480 / 96) * 96 + col % 96) * 2 + col / 480) = (b * 480 + col % 480) * 2 + col / 480; omega)]
  rw [at5_apply A]
  rfl

/-- Out of range the planar rows are `0`, as the reader is. -/
theorem row0_ge (A : S32768x1x1x481x2.Idx → EReal) (b col : Nat) (h : ¬col < 962) : row0 A b col = 0 := by
  unfold row0 at5; rw [dif_neg]; omega
theorem row1_ge (A : S32768x5x1x96x2.Idx → EReal) (b col : Nat) (h : ¬col < 960) : row1 A b col = 0 := by
  unfold row1 at5; rw [dif_neg]; omega
theorem row2_ge (A : S32768x1x5x96x2.Idx → EReal) (b col : Nat) (h : ¬col < 960) : row2 A b col = 0 := by
  unfold row2 at5; rw [dif_neg]; omega

/-! ## The rows the region finds -/

theorem frame_row (c : Dev nD) (b : Nat) (hb : b < 32768) :
    at2 (V m c main_v2 : S32768x962.Idx → EReal) b = row0 (m ((c : Thread nD τ).loc main_arg0)) b := by
  funext col
  by_cases hc : col < 962
  · rw [V_frame, frame_at _ b col hb hc]
  · rw [row0_ge _ b col hc]; unfold at2; rw [dif_neg (by omega)]

theorem coef_row (c : Dev nD) (b : Nat) (hb : b < 32768) :
    at2 (V m c main_v5 : S32768x960.Idx → EReal) b = row1 (m ((c : Thread nD τ).loc main_arg1)) b := by
  funext col
  by_cases hc : col < 960
  · rw [V_coef, coef_at _ b col hb hc]
  · rw [row1_ge _ b col hc]; unfold at2; rw [dif_neg (by omega)]

theorem buf_row (c : Dev nD) (b : Nat) (hb : b < 32768) :
    at2 (V m c main_v8 : S32768x960.Idx → EReal) b = row2 (m ((c : Thread nD τ).loc main_arg2)) b := by
  funext col
  by_cases hc : col < 960
  · rw [V_buf, buf_at _ b col hb hc]
  · rw [row2_ge _ b col hc]; unfold at2; rw [dif_neg (by omega)]

end Cert.KernelIdeal.HostIn

end
-- ==== Proof.KernelValue.lean ====
/-
  The kernel's two results.

  After the region the host undoes the planar layout of each result: a reshape that splits the column axis into
  (part, bin) — or (part, slot · bin) —, a transpose that moves the part axis last, and a reshape that restores the unit
  and slot axes. Read at a rank-5 index, the first result is the planar enhanced frame at row `b`, column `481 c + f`,
  the second the planar new ring buffer at row `b`, column `480 c + 96 o + f`; by the planar layout's lemmas these are the
  specification's entries of the argument arrays.
-/
import proofs.«115475_j55765855371911_2_alg».proof.Proof.Final
import proofs.«115475_j55765855371911_2_alg».proof.Proof.HostIn
import Idealize.ShloMosaic.Lib.Pipeline.Value
import Idealize.ShloMosaic.Lib.StableHlo.Run

noncomputable section

namespace Cert.KernelIdeal.KernelValue

open Cert.KernelIdeal Cert.KernelIdeal.Gen Cert.RingFilter
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The host operations after the region, at an index -/

/-- Undoing the frame's planar layout: entry `(b, f, c)` is column `481 c + f` of row `b`. -/
theorem unplanar3_at (O : S32768x962.Idx → EReal) (i : S32768x1x1x481x2.Idx) :
    shapeCast S32768x1x1x481x2 (transpose S32768x481x2 [0, 2, 1]
        (shapeCast S32768x2x481 O Facts₀.shapeCasts_S32768x962_S32768x2x481)
        Facts₀.transposes_S32768x2x481_S32768x481x2_0_2_1) Facts₀.shapeCasts_S32768x481x2_S32768x1x1x481x2 i
      = at2 O (i 0).val ((i 4).val * 481 + (i 3).val) := by
  have h0 : (i 0).val < 32768 := (i 0).isLt
  have h1 : (i 1).val < 1 := (i 1).isLt
  have h2 : (i 2).val < 1 := (i 2).isLt
  have h3 : (i 3).val < 481 := (i 3).isLt
  have h4 : (i 4).val < 2 := (i 4).isLt
  rw [shapeCast_apply _ Facts₀.shapeCasts_S32768x481x2_S32768x1x1x481x2 i
    (ix3 (i 0) (i 3) (i 4) : S32768x481x2.Idx)
    (by rw [Shape.rowMajor_val_three, Shape.rowMajor_val_five]
        show ((i 0).val * 481 + (i 3).val) * 2 + (i 4).val = (((((i 0).val * 1 + (i 1).val) * 1 + (i 2).val) * 481 + (i 3).val) * 2 + (i 4).val); omega)]
  rw [transpose_apply [0, 2, 1] _ Facts₀.transposes_S32768x2x481_S32768x481x2_0_2_1 _
    (ix3 (i 0) (i 4) (i 3) : S32768x2x481.Idx)
    (fun d => by
      match d with
      | ⟨0, _⟩ => rfl
      | ⟨1, _⟩ => rfl
      | ⟨2, _⟩ => rfl)]
  rw [shapeCast_apply _ Facts₀.shapeCasts_S32768x962_S32768x2x481 _
    (ix2 (i 0) (⟨(i 4).val * 481 + (i 3).val, by omega⟩ : Fin 962) : S32768x962.Idx)
    (by rw [Shape.rowMajor_val_two, Shape.rowMajor_val_three]
        show (i 0).val * 962 + ((i 4).val * 481 + (i 3).val) = ((i 0).val * 2 + (i 4).val) * 481 + (i 3).val; omega)]
  rw [at2_apply O]

/-- Undoing the ring buffer's planar layout: entry `(b, o, f, c)` is column `480 c + 96 o + f` of row `b`. -/
theorem unplanar4_at (O : S32768x960.Idx → EReal) (i : S32768x1x5x96x2.Idx) :
    shapeCast S32768x1x5x96x2 (transpose S32768x480x2 [0, 2, 1]
        (shapeCast S32768x2x480 O Facts₀.shapeCasts_S32768x960_S32768x2x480)
        Facts₀.transposes_S32768x2x480_S32768x480x2_0_2_1) Facts₀.shapeCasts_S32768x480x2_S32768x1x5x96x2 i
      = at2 O (i 0).val ((i 4).val * 480 + ((i 2).val * 96 + (i 3).val)) := by
  have h0 : (i 0).val < 32768 := (i 0).isLt
  have h1 : (i 1).val < 1 := (i 1).isLt
  have h2 : (i 2).val < 5 := (i 2).isLt
  have h3 : (i 3).val < 96 := (i 3).isLt
  have h4 : (i 4).val < 2 := (i 4).isLt
  rw [shapeCast_apply _ Facts₀.shapeCasts_S32768x480x2_S32768x1x5x96x2 i
    (ix3 (i 0) (⟨(i 2).val * 96 + (i 3).val, by omega⟩ : Fin 480) (i 4) : S32768x480x2.Idx)
    (by rw [Shape.rowMajor_val_three, Shape.rowMajor_val_five]
        show ((i 0).val * 480 + ((i 2).val * 96 + (i 3).val)) * 2 + (i 4).val = (((((i 0).val * 1 + (i 1).val) * 5 + (i 2).val) * 96 + (i 3).val) * 2 + (i 4).val); omega)]
  rw [transpose_apply [0, 2, 1] _ Facts₀.transposes_S32768x2x480_S32768x480x2_0_2_1 _
    (ix3 (i 0) (i 4) (⟨(i 2).val * 96 + (i 3).val, by omega⟩ : Fin 480) : S32768x2x480.Idx)
    (fun d => by
      match d with
      | ⟨0, _⟩ => rfl
      | ⟨1, _⟩ => rfl
      | ⟨2, _⟩ => rfl)]
  rw [shapeCast_apply _ Facts₀.shapeCasts_S32768x960_S32768x2x480 _
    (ix2 (i 0) (⟨(i 4).val * 480 + ((i 2).val * 96 + (i 3).val), by omega⟩ : Fin 960) : S32768x960.Idx)
    (by rw [Shape.rowMajor_val_two, Shape.rowMajor_val_three]
        show (i 0).val * 960 + ((i 4).val * 480 + ((i 2).val * 96 + (i 3).val)) = ((i 0).val * 2 + (i 4).val) * 480 + ((i 2).val * 96 + (i 3).val); omega)]
  rw [at2_apply O]

/-! ## The results after the host tail, as terms of the region's arrays -/

theorem tail3 (c : Dev nD) : Pipeline.afterTail₀ cfgs (dats m) 0 (V0 m) [hostOps1] c main_v12
    = shapeCast S32768x1x1x481x2 (transpose S32768x481x2 [0, 2, 1]
        (shapeCast S32768x2x481 (Final.planar3 m c) Facts₀.shapeCasts_S32768x962_S32768x2x481)
        Facts₀.transposes_S32768x2x481_S32768x481x2_0_2_1) Facts₀.shapeCasts_S32768x481x2_S32768x1x1x481x2 := by
  unfold Pipeline.afterTail₀
  show StableHlo.after hostOps1 _ (Proc.devRef .tc main_v12) = _
  after_results
  rw [show Pipeline.withArrays (cfgs 0).spec c (V0 m c) (fun w => (dats m 0 c).arrAt w (cfgs 0).N) (Proc.tc.devRef main_v9_0)
      = Final.planar3 m c from (Pipeline.withArrays_arr spec0 launch0.win.arr_inj c _ _ 3).trans (Final.final3 m c)]
  rfl

theorem tail4 (c : Dev nD) : Pipeline.afterTail₀ cfgs (dats m) 0 (V0 m) [hostOps1] c main_v15
    = shapeCast S32768x1x5x96x2 (transpose S32768x480x2 [0, 2, 1]
        (shapeCast S32768x2x480 (Final.planar4 m c) Facts₀.shapeCasts_S32768x960_S32768x2x480)
        Facts₀.transposes_S32768x2x480_S32768x480x2_0_2_1) Facts₀.shapeCasts_S32768x480x2_S32768x1x5x96x2 := by
  unfold Pipeline.afterTail₀
  show StableHlo.after hostOps1 _ (Proc.devRef .tc main_v15) = _
  after_results
  rw [show Pipeline.withArrays (cfgs 0).spec c (V0 m c) (fun w => (dats m 0 c).arrAt w (cfgs 0).N) (Proc.tc.devRef main_v9_1)
      = Final.planar4 m c from (Pipeline.withArrays_arr spec0 launch0.win.arr_inj c _ _ 4).trans (Final.final4 m c)]
  rfl

/-! ## The two results are the specification's -/

/-- The first result is the enhanced frame of the arguments. -/
theorem result0 (c : Dev nD) : Pipeline.afterTail₀ cfgs (dats m) 0 (V0 m) [hostOps1] c main_v12
    = enhanced (m ((c : Thread nD τ).loc main_arg0)) (m ((c : Thread nD τ).loc main_arg1)) (m ((c : Thread nD τ).loc main_arg2)) := by
  rw [tail3]
  funext i
  have h0 : (i 0).val < 32768 := (i 0).isLt
  have h3 : (i 3).val < 481 := (i 3).isLt
  have h4 : (i 4).val < 2 := (i 4).isLt
  rw [unplanar3_at, at2_of_lt _ h0 (by omega : (i 4).val * 481 + (i 3).val < 962)]
  show rowOut3 (at2 (V m c main_v2 : S32768x962.Idx → EReal) (i 0).val) (at2 (V m c main_v5 : S32768x960.Idx → EReal) (i 0).val)
      (at2 (V m c main_v8 : S32768x960.Idx → EReal) (i 0).val) ((i 4).val * 481 + (i 3).val) = _
  rw [HostIn.frame_row m c _ h0, HostIn.coef_row m c _ h0, HostIn.buf_row m c _ h0]
  exact rowOut3_planar _ _ _ i

/-- The second result is the new ring buffer of the arguments. -/
theorem result1 (c : Dev nD) : Pipeline.afterTail₀ cfgs (dats m) 0 (V0 m) [hostOps1] c main_v15
    = newBuf (m ((c : Thread nD τ).loc main_arg0)) (m ((c : Thread nD τ).loc main_arg2)) := by
  rw [tail4]
  funext i
  have h0 : (i 0).val < 32768 := (i 0).isLt
  have h2 : (i 2).val < 5 := (i 2).isLt
  have h3 : (i 3).val < 96 := (i 3).isLt
  have h4 : (i 4).val < 2 := (i 4).isLt
  rw [unplanar4_at, at2_of_lt _ h0 (by omega : (i 4).val * 480 + ((i 2).val * 96 + (i 3).val) < 960)]
  show rowOut4 (at2 (V m c main_v2 : S32768x962.Idx → EReal) (i 0).val) (at2 (V m c main_v8 : S32768x960.Idx → EReal) (i 0).val)
      ((i 4).val * 480 + ((i 2).val * 96 + (i 3).val)) = _
  rw [HostIn.frame_row m c _ h0, HostIn.buf_row m c _ h0]
  exact rowOut4_planar _ _ i

/-! ## The run, read -/

/-- Every weakly fair execution of the kernel's program terminates with the two results at the specification's functions
    of the arguments, and the arguments unchanged. -/
theorem run : θ_run defs (onTc (τ := τ) (main (F := Ideal))) ⟨m, fun _ => 0, ρ⟩ fun r => ∀ c : Dev nD,
      r.2.mem ((c.tc : Thread nD τ).loc main_v12)
        = enhanced (m ((c.tc : Thread nD τ).loc main_arg0)) (m ((c.tc : Thread nD τ).loc main_arg1)) (m ((c.tc : Thread nD τ).loc main_arg2))
      ∧ r.2.mem ((c.tc : Thread nD τ).loc main_v15)
        = newBuf (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 (by decide) (by decide))).trans (result0 m c),
      ((h c).2 main_v15 (Pipeline.mem_restRefs_of main_v15 (by decide) (by decide))).trans (result1 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.lean ====
/-
  The kernel against its reference, over the extended reals.

  The kernel is one step of a filter over spectral frames. Its arguments are a frame `A0` of 481 complex bins, five
  complex coefficient vectors `A1` over the 96 low bins, and a ring buffer `A2` of the low bins of the five previous
  frames. It returns the ring buffer advanced by one frame (the oldest slot dropped, the frame's low bins appended) and
  the enhanced frame: in each low bin the sum over the five slots of (advanced ring buffer) × (coefficient), a complex
  product written out in real and imaginary parts; the high bins unchanged.

  The reference computes this on whole arrays with complex numbers interleaved on a last axis of two. The kernel
  separates real and imaginary parts first (all real parts of a batch row, then all imaginary parts), cuts the batch
  into 64 blocks of 512 rows, forms the five products' sums as a chain of four additions, and interleaves again
  afterwards. Over the extended reals the two agree entry by entry: each entry is the same sum of the same five terms —
  the reference's started from `0`, the kernel's added first to last; no other law of arithmetic is used, and in
  particular none that needs the inputs finite.

  Proof/Spec.lean states the two results entry by entry, and one batch row of the planar layout as a function of the
  column; Proof/Planar.lean relates the two; Proof/RefRead.lean reads the reference; Proof/Body.lean, Final.lean,
  HostIn.lean and KernelValue.lean read the kernel: what the body stores, the blocks as one array, the host operations
  before and after. The idealized kernel is the kernel's own text read over the extended reals, so that conjunct has
  nothing to state.
-/
import proofs.«115475_j55765855371911_2_alg».proof.Defs
import proofs.«115475_j55765855371911_2_alg».proof.Proof.Gen.Kernel
import proofs.«115475_j55765855371911_2_alg».proof.Proof.Gen.Kernel.Skeleton
import proofs.«115475_j55765855371911_2_alg».proof.Proof.Gen.Kernel.Launch
import proofs.«115475_j55765855371911_2_alg».proof.Proof.Gen.Kernel.Points
import proofs.«115475_j55765855371911_2_alg».proof.Proof.Gen.Kernel.Frame
import proofs.«115475_j55765855371911_2_alg».proof.Proof.Gen.KernelIdeal
import proofs.«115475_j55765855371911_2_alg».proof.Proof.Gen.KernelIdeal.Skeleton
import proofs.«115475_j55765855371911_2_alg».proof.Proof.Gen.KernelIdeal.Launch
import proofs.«115475_j55765855371911_2_alg».proof.Proof.Gen.KernelIdeal.Points
import proofs.«115475_j55765855371911_2_alg».proof.Proof.Gen.KernelIdeal.Frame
import proofs.«115475_j55765855371911_2_alg».proof.Proof.Gen.ReferenceIdeal
import proofs.«115475_j55765855371911_2_alg».proof.Proof.Gen.Pre_finite_inputs
import proofs.«115475_j55765855371911_2_alg».proof.Proof.RefRead
import proofs.«115475_j55765855371911_2_alg».proof.Proof.KernelValue
import Idealize.ShloMosaic.Adequacy
import Idealize.ShloMosaic.Init

noncomputable section

namespace Cert.Proof

open Idealize.ShloMosaic Idealize.ShloMosaic.TcCoe Idealize.SL.Sem Cert.RingFilter

/-- Both kernels terminate without a fault and leave their arguments as they were. -/
theorem frame_k : Cert.frame_Kernel := fun m ρ _ => Cert.Kernel.Gen.frame m ρ
theorem frame_ki : Cert.frame_KernelIdeal := fun m ρ _ => Cert.KernelIdeal.Gen.frame m ρ
/-- So does the reference: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel is the kernel's text read over the extended reals: nothing was rewritten. -/
theorem preserves : Cert.preserves_Kernel_KernelIdeal := trivial

/-- From arguments that agree, both programs end with the enhanced frame and the advanced ring buffer of the
    specification. -/
theorem algebraic : Cert.algebraic_KernelIdeal_ReferenceIdeal := by
  intro m ρ m' ρ' _ hagree
  refine ⟨fun c => enhanced (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    fun c => newBuf (m ((c.tc : Thread Cert.KernelIdeal.nD Cert.KernelIdeal.τ).loc Cert.KernelIdeal.main_arg0))
        (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v25_eq, Cert.ReferenceIdeal.RefValue.result0_eq,
      (hagree c).1, (hagree c).2.1, (hagree c).2.2]
  · rw [(h c).2.1, Cert.ReferenceIdeal.Read.val_main_v2_eq, Cert.ReferenceIdeal.RefValue.result1_eq,
      (hagree c).1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
